-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S2x480000 : Shape := ⟨2, ![2, 480000]⟩
abbrev S480000x16 : Shape := ⟨2, ![480000, 16]⟩
abbrev S144x128 : Shape := ⟨2, ![144, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S480000x16 : S_.BroadcastsInDim S480000x16 (![] : Fin 0 → Fin S480000x16.rank)
  reducesTo_S480000x16_S_d0_1 : S480000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x2 .f32) (main_arg12 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg11
  let main_cst_18 : FVec F S_ .f32 := constant S_ .f32 0x7F800000#32
  let main_v50 : FVec F S128x2 .f32 := broadcastInDim S128x2 ![] bcast_S_S128x2 main_cst_18
  fn_part3 (F := F) main_arg12 main_v48 main_v49 main_v50

def fn_part1 {F : FTy → Type} [FloatOps F] (main_arg5 : FVec F S128x128 .f32) (main_arg6 : FVec F S128 .f32) (main_arg7 : FVec F S144x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S144x128 .f32 := Host.absf main_arg7
  let main_cst_10 : FVec F S_ .f32 := constant S_ .f32 0x7F800000#32
  let main_v30 : FVec F S144x128 .f32 := broadcastInDim S144x128 ![] bcast_S_S144x128 main_cst_10
  let main_v31 : IVec S144x128 1 := cmpf .olt main_v29 main_v30
  let main_c_11 : IVec S_ 1 := constantI S_ 1 1#1
  let main_v32 : IVec S_ 1 := (fun x v => Host.reduce IntOp.andi x v reducesTo_S144x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S30000x128 .f32) (main_arg1 : IVec S2x480000 32) (main_arg2 : FVec F S480000x16 .f32) (main_arg3 : FVec F S144x128 .f32) (main_arg4 : FVec F S128 .f32) (main_arg5 : FVec F S128x128 .f32) (main_arg6 : FVec F S128 .f32) (main_arg7 : FVec F S144x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S480000x16 .f32 := Host.absf main_arg2
  let main_cst_0 : FVec F S_ .f32 := constant S_ .f32 0x7F800000#32
  let main_v5 : FVec F S480000x16 .f32 := broadcastInDim S480000x16 ![] bcast_S_S480000x16 main_cst_0
  let main_v6 : IVec S480000x16 1 := cmpf .olt main_v4 main_v5
  let main_c_1 : IVec S_ 1 := constantI S_ 1 1#1
  let main_v7 : IVec S_ 1 := (fun x v => Host.reduce IntOp.andi x v reducesTo_S480000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S30000x128 : Shape := ⟨2, ![30000, 128]⟩
abbrev S2x480000 : Shape := ⟨2, ![2, 480000]⟩
abbrev S480000x16 : Shape := ⟨2, ![480000, 16]⟩
abbrev S144x128 : Shape := ⟨2, ![144, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x480000 : Shape := ⟨2, ![1, 480000]⟩
abbrev S480000 : Shape := ⟨1, ![480000]⟩
abbrev S_ : Shape := ⟨0, ![]⟩
abbrev S480000x1 : Shape := ⟨2, ![480000, 1]⟩
abbrev S480000x128 : Shape := ⟨2, ![480000, 128]⟩
abbrev S16x128 : Shape := ⟨2, ![16, 128]⟩
abbrev S1x128 : Shape := ⟨2, ![1, 128]⟩
abbrev S8000x128 : Shape := ⟨2, ![8000, 128]⟩
abbrev S8000x16 : Shape := ⟨2, ![8000, 16]⟩
abbrev S1x2 : Shape := ⟨2, ![1, 2]⟩

abbrev nBuf : Space → Nat
  | .hbm => 73
  | .vmem => 22
  | .smem => 0
  | _ => 0

abbrev bufTy : (tb : Table) → Fin (tcTables nBuf tb) → BufTy
  | .hbm, ⟨0, _⟩ => ⟨S30000x128, .f32⟩
  | .hbm, ⟨1, _⟩ => ⟨S2x480000, .i32⟩
  | .hbm, ⟨2, _⟩ => ⟨S480000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S144x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x480000, .i32⟩
  | .hbm, ⟨14, _⟩ => ⟨S480000, .i32⟩
  | .hbm, ⟨15, _⟩ => ⟨S1x480000, .i32⟩
  | .hbm, ⟨16, _⟩ => ⟨S480000, .i32⟩
  | .hbm, ⟨17, _⟩ => ⟨S480000x16, .bf16⟩
  | .hbm, ⟨18, _⟩ => ⟨S30000x128, .bf16⟩
  | .hbm, ⟨19, _⟩ => ⟨S_, .i32⟩
  | .hbm, ⟨20, _⟩ => ⟨S480000, .i32⟩
  | .hbm, ⟨21, _⟩ => ⟨S480000, .i1⟩
  | .hbm, ⟨22, _⟩ => ⟨S_, .i32⟩
  | .hbm, ⟨23, _⟩ => ⟨S480000, .i32⟩
  | .hbm, ⟨24, _⟩ => ⟨S480000, .i32⟩
  | .hbm, ⟨25, _⟩ => ⟨S480000, .i32⟩
  | .hbm, ⟨26, _⟩ => ⟨S480000x1, .i32⟩
  | .hbm, ⟨27, _⟩ => ⟨S480000x128, .bf16⟩
  | .hbm, ⟨28, _⟩ => ⟨S128x128, .f32⟩
  | .hbm, ⟨29, _⟩ => ⟨S16x128, .f32⟩
  | .hbm, ⟨30, _⟩ => ⟨S1x128, .f32⟩
  | .hbm, ⟨31, _⟩ => ⟨S1x128, .f32⟩
  | .hbm, ⟨32, _⟩ => ⟨S480000x128, .f32⟩
  | .hbm, ⟨33, _⟩ => ⟨S_, .f32⟩
  | .hbm, ⟨34, _⟩ => ⟨S30000x128, .f32⟩
  | .hbm, ⟨35, _⟩ => ⟨S480000x1, .i32⟩
  | .hbm, ⟨36, _⟩ => ⟨S30000x128, .f32⟩
  | .hbm, ⟨37, _⟩ => ⟨S30000x128, .f32⟩
  | .hbm, ⟨38, _⟩ => ⟨S_, .f32⟩
  | .hbm, ⟨39, _⟩ => ⟨S30000x128, .f32⟩
  | .hbm, ⟨40, _⟩ => ⟨S30000x128, .f32⟩
  | .hbm, ⟨41, _⟩ => ⟨S30000x128, .bf16⟩
  | .hbm, ⟨42, _⟩ => ⟨S_, .i32⟩
  | .hbm, ⟨43, _⟩ => ⟨S480000, .i32⟩
  | .hbm, ⟨44, _⟩ => ⟨S480000, .i1⟩
  | .hbm, ⟨45, _⟩ => ⟨S_, .i32⟩
  | .hbm, ⟨46, _⟩ => ⟨S480000, .i32⟩
  | .hbm, ⟨47, _⟩ => ⟨S480000, .i32⟩
  | .hbm, ⟨48, _⟩ => ⟨S480000, .i32⟩
  | .hbm, ⟨49, _⟩ => ⟨S480000x1, .i32⟩
  | .hbm, ⟨50, _⟩ => ⟨S480000x128, .bf16⟩
  | .hbm, ⟨51, _⟩ => ⟨S128x128, .f32⟩
  | .hbm, ⟨52, _⟩ => ⟨S16x128, .f32⟩
  | .hbm, ⟨53, _⟩ => ⟨S1x128, .f32⟩
  | .hbm, ⟨54, _⟩ => ⟨S1x128, .f32⟩
  | .hbm, ⟨55, _⟩ => ⟨S480000x128, .f32⟩
  | .hbm, ⟨56, _⟩ => ⟨S_, .f32⟩
  | .hbm, ⟨57, _⟩ => ⟨S30000x128, .f32⟩
  | .hbm, ⟨58, _⟩ => ⟨S480000x1, .i32⟩
  | .hbm, ⟨59, _⟩ => ⟨S30000x128, .f32⟩
  | .hbm, ⟨60, _⟩ => ⟨S30000x128, .f32⟩
  | .hbm, ⟨61, _⟩ => ⟨S_, .f32⟩
  | .hbm, ⟨62, _⟩ => ⟨S30000x128, .f32⟩
  | .hbm, ⟨63, _⟩ => ⟨S30000x128, .f32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x2, .f32⟩
  | .hbm, ⟨71, _⟩ => ⟨S1x2, .f32⟩
  | .hbm, ⟨72, _⟩ => ⟨S1x2, .f32⟩
  | .local _ .vmem, ⟨0, _⟩ => ⟨S8000x128, .bf16⟩
  | .local _ .vmem, ⟨1, _⟩ => ⟨S8000x128, .bf16⟩
  | .local _ .vmem, ⟨2, _⟩ => ⟨S8000x16, .bf16⟩
  | .local _ .vmem, ⟨3, _⟩ => ⟨S8000x16, .bf16⟩
  | .local _ .vmem, ⟨4, _⟩ => ⟨S128x128, .f32⟩
  | .local _ .vmem, ⟨5, _⟩ => ⟨S16x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S8000x128, .bf16⟩
  | .local _ .vmem, ⟨12, _⟩ => ⟨S8000x128, .bf16⟩
  | .local _ .vmem, ⟨13, _⟩ => ⟨S8000x16, .bf16⟩
  | .local _ .vmem, ⟨14, _⟩ => ⟨S8000x16, .bf16⟩
  | .local _ .vmem, ⟨15, _⟩ => ⟨S128x128, .f32⟩
  | .local _ .vmem, ⟨16, _⟩ => ⟨S16x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S8000x128, .f32⟩
  | .local _ .vmem, ⟨21, _⟩ => ⟨S8000x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bitsLt_bf16_f32 : FTy.bits .bf16 < FTy.bits .f32
  bcast_S_S480000 : S_.BroadcastsInDim S480000 (![] : Fin 0 → Fin S480000.rank)
  bcast_S480000_S480000x1_0 : S480000.BroadcastsInDim S480000x1 (![0] : Fin 1 → Fin S480000x1.rank)
  slices_S144x128_S128x128_0_0 : S144x128.Slices ![0, 0] S128x128
  slices_S144x128_S16x128_128_0 : S144x128.Slices ![128, 0] S16x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S30000x128 : S_.BroadcastsInDim S30000x128 (![] : Fin 0 → Fin S30000x128.rank)
  reducesTo_S30000x128_S128_d0 : S30000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S2_S1x2_1 : S2.BroadcastsInDim S1x2 (![1] : Fin 1 → Fin S1x2.rank)
  gather_S30000x128_S480000x1_S480000x128_1_0_n_n_0_1_1128_wf : GatherDims.WF S30000x128 S480000x1 S480000x128 [1] [0] [] [0] [] 1 ![1, 128]
  dot_S8000x128_S128x128_S8000x128_1_0_0_1_n_n_wf : DotDims.WF S8000x128 S128x128 S8000x128 [1] [0] [0] [1] [] []
  dot_S8000x16_S16x128_S8000x128_1_0_0_1_n_n_wf : DotDims.WF S8000x16 S16x128 S8000x128 [1] [0] [0] [1] [] []
  scatter_S30000x128_S480000x1_S480000x128_1_0_0_1_wf : ScatterDims.WF S30000x128 S480000x1 S480000x128 [1] [0] [0] 1
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S480000x128.size a
  hwx0_0 : ∀ i : grid0.Coords, EltTy.bits .bf16 = 32 ∨ (Rect.block (s := S480000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S480000x16.size a
  hwx0_1 : ∀ i : grid0.Coords, EltTy.bits .bf16 = 32 ∨ (Rect.block (s := S480000x16) S8000x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S480000x128.size a
  hwx0_7 : ∀ i : grid0.Coords, EltTy.bits .f32 = 32 ∨ (Rect.block (s := S480000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S480000x128.size a
  hwx1_0 : ∀ i : grid1.Coords, EltTy.bits .bf16 = 32 ∨ (Rect.block (s := S480000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S480000x16.size a
  hwx1_1 : ∀ i : grid1.Coords, EltTy.bits .bf16 = 32 ∨ (Rect.block (s := S480000x16) S8000x16.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x128.size a ≤ S480000x128.size a
  hwx1_7 : ∀ i : grid1.Coords, EltTy.bits .f32 = 32 ∨ (Rect.block (s := S480000x128) S8000x128.size (cc1_transform_7 i) (hinb1_7 i)).WholeWords (EltTy.packing .f32)

variable [Facts₀]

def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_v12) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S16x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S8000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S30000x128 : Shape := ⟨2, ![30000, 128]⟩
abbrev S2x480000 : Shape := ⟨2, ![2, 480000]⟩
abbrev S480000x16 : Shape := ⟨2, ![480000, 16]⟩
abbrev S144x128 : Shape := ⟨2, ![144, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x480000 : Shape := ⟨2, ![1, 480000]⟩
abbrev S480000 : Shape := ⟨1, ![480000]⟩
abbrev S_ : Shape := ⟨0, ![]⟩
abbrev S480000x1 : Shape := ⟨2, ![480000, 1]⟩
abbrev S480000x128 : Shape := ⟨2, ![480000, 128]⟩
abbrev S480000x144 : Shape := ⟨2, ![480000, 144]⟩
abbrev S1x128 : Shape := ⟨2, ![1, 128]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S30000x128, .f32⟩
  | .hbm, ⟨1, _⟩ => ⟨S2x480000, .i32⟩
  | .hbm, ⟨2, _⟩ => ⟨S480000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S144x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x480000, .i32⟩
  | .hbm, ⟨14, _⟩ => ⟨S480000, .i32⟩
  | .hbm, ⟨15, _⟩ => ⟨S1x480000, .i32⟩
  | .hbm, ⟨16, _⟩ => ⟨S480000, .i32⟩
  | .hbm, ⟨17, _⟩ => ⟨S_, .i32⟩
  | .hbm, ⟨18, _⟩ => ⟨S480000, .i32⟩
  | .hbm, ⟨19, _⟩ => ⟨S480000, .i1⟩
  | .hbm, ⟨20, _⟩ => ⟨S_, .i32⟩
  | .hbm, ⟨21, _⟩ => ⟨S480000, .i32⟩
  | .hbm, ⟨22, _⟩ => ⟨S480000, .i32⟩
  | .hbm, ⟨23, _⟩ => ⟨S480000, .i32⟩
  | .hbm, ⟨24, _⟩ => ⟨S480000x1, .i32⟩
  | .hbm, ⟨25, _⟩ => ⟨S480000x128, .f32⟩
  | .hbm, ⟨26, _⟩ => ⟨S480000x144, .f32⟩
  | .hbm, ⟨27, _⟩ => ⟨S480000x128, .f32⟩
  | .hbm, ⟨28, _⟩ => ⟨S1x128, .f32⟩
  | .hbm, ⟨29, _⟩ => ⟨S480000x128, .f32⟩
  | .hbm, ⟨30, _⟩ => ⟨S480000x128, .f32⟩
  | .hbm, ⟨31, _⟩ => ⟨S_, .f32⟩
  | .hbm, ⟨32, _⟩ => ⟨S480000x128, .f32⟩
  | .hbm, ⟨33, _⟩ => ⟨S480000x128, .f32⟩
  | .hbm, ⟨34, _⟩ => ⟨S480000x128, .f32⟩
  | .hbm, ⟨35, _⟩ => ⟨S1x128, .f32⟩
  | .hbm, ⟨36, _⟩ => ⟨S480000x128, .f32⟩
  | .hbm, ⟨37, _⟩ => ⟨S480000x128, .f32⟩
  | .hbm, ⟨38, _⟩ => ⟨S_, .f32⟩
  | .hbm, ⟨39, _⟩ => ⟨S30000x128, .f32⟩
  | .hbm, ⟨40, _⟩ => ⟨S480000x1, .i32⟩
  | .hbm, ⟨41, _⟩ => ⟨S30000x128, .f32⟩
  | .hbm, ⟨42, _⟩ => ⟨S30000x128, .f32⟩
  | .hbm, ⟨43, _⟩ => ⟨S_, .f32⟩
  | .hbm, ⟨44, _⟩ => ⟨S30000x128, .f32⟩
  | .hbm, ⟨45, _⟩ => ⟨S30000x128, .f32⟩
  | .hbm, ⟨46, _⟩ => ⟨S_, .i32⟩
  | .hbm, ⟨47, _⟩ => ⟨S480000, .i32⟩
  | .hbm, ⟨48, _⟩ => ⟨S480000, .i1⟩
  | .hbm, ⟨49, _⟩ => ⟨S_, .i32⟩
  | .hbm, ⟨50, _⟩ => ⟨S480000, .i32⟩
  | .hbm, ⟨51, _⟩ => ⟨S480000, .i32⟩
  | .hbm, ⟨52, _⟩ => ⟨S480000, .i32⟩
  | .hbm, ⟨53, _⟩ => ⟨S480000x1, .i32⟩
  | .hbm, ⟨54, _⟩ => ⟨S480000x128, .f32⟩
  | .hbm, ⟨55, _⟩ => ⟨S480000x144, .f32⟩
  | .hbm, ⟨56, _⟩ => ⟨S480000x128, .f32⟩
  | .hbm, ⟨57, _⟩ => ⟨S1x128, .f32⟩
  | .hbm, ⟨58, _⟩ => ⟨S480000x128, .f32⟩
  | .hbm, ⟨59, _⟩ => ⟨S480000x128, .f32⟩
  | .hbm, ⟨60, _⟩ => ⟨S_, .f32⟩
  | .hbm, ⟨61, _⟩ => ⟨S480000x128, .f32⟩
  | .hbm, ⟨62, _⟩ => ⟨S480000x128, .f32⟩
  | .hbm, ⟨63, _⟩ => ⟨S480000x128, .f32⟩
  | .hbm, ⟨64, _⟩ => ⟨S1x128, .f32⟩
  | .hbm, ⟨65, _⟩ => ⟨S480000x128, .f32⟩
  | .hbm, ⟨66, _⟩ => ⟨S480000x128, .f32⟩
  | .hbm, ⟨67, _⟩ => ⟨S_, .f32⟩
  | .hbm, ⟨68, _⟩ => ⟨S30000x128, .f32⟩
  | .hbm, ⟨69, _⟩ => ⟨S480000x1, .i32⟩
  | .hbm, ⟨70, _⟩ => ⟨S30000x128, .f32⟩
  | .hbm, ⟨71, _⟩ => ⟨S30000x128, .f32⟩
  | .hbm, ⟨72, _⟩ => ⟨S_, .f32⟩
  | .hbm, ⟨73, _⟩ => ⟨S30000x128, .f32⟩
  | .hbm, ⟨74, _⟩ => ⟨S30000x128, .f32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x2, .f32⟩
  | .hbm, ⟨82, _⟩ => ⟨S1x2, .f32⟩
  | .hbm, ⟨83, _⟩ => ⟨S1x2, .f32⟩
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  concatenates_S480000x128_S480000x16_S480000x144_d1 : Shape.Concatenates [S480000x128, S480000x16] S480000x144 1
  bcast_S128_S1x128_1 : S128.BroadcastsInDim S1x128 (![1] : Fin 1 → Fin S1x128.rank)
  bcast_S1x128_S480000x128_0_1 : S1x128.BroadcastsInDim S480000x128 (![0, 1] : Fin 2 → Fin S480000x128.rank)
  bcast_S_S480000x128 : S_.BroadcastsInDim S480000x128 (![] : Fin 0 → Fin S480000x128.rank)
  bcast_S_S30000x128 : S_.BroadcastsInDim S30000x128 (![] : Fin 0 → Fin S30000x128.rank)
  reducesTo_S30000x128_S128_d0 : S30000x128.ReducesTo [0] S128
  h_S_ : 0 < S_.numel
  bcast_S_S1x128 : S_.BroadcastsInDim S1x128 (![] : Fin 0 → Fin S1x128.rank)
  bcast_S2_S1x2_1 : S2.BroadcastsInDim S1x2 (![1] : Fin 1 → Fin S1x2.rank)
  gather_S30000x128_S480000x1_S480000x128_1_0_n_n_0_1_1128_wf : GatherDims.WF S30000x128 S480000x1 S480000x128 [1] [0] [] [0] [] 1 ![1, 128]
  dot_S480000x144_S144x128_S480000x128_1_0_0_1_n_n_wf : DotDims.WF S480000x144 S144x128 S480000x128 [1] [0] [0] [1] [] []
  dot_S480000x128_S128x128_S480000x128_1_0_0_1_n_n_wf : DotDims.WF S480000x128 S128x128 S480000x128 [1] [0] [0] [1] [] []
  scatter_S30000x128_S480000x1_S480000x128_1_0_0_1_wf : ScatterDims.WF S30000x128 S480000x1 S480000x128 [1] [0] [0] 1
  dot_S1x128_S128x2_S1x2_1_0_0_1_n_n_wf : DotDims.WF S1x128 S128x2 S1x2 [1] [0] [0] [1] [] []

variable [Facts₀]

def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S480000x144_S144x128_S480000x128_1_0_0_1_n_n : DotDims S480000x144 S144x128 S480000x128 where
  lhsContracting := [1]
  rhsContracting := [0]
  lhsNonContracting := [0]
  rhsNonContracting := [1]
  lhsBatch := []
  rhsBatch := []
  wf := dot_S480000x144_S144x128_S480000x128_1_0_0_1_n_n_wf
def dot_S480000x128_S128x128_S480000x128_1_0_0_1_n_n : DotDims S480000x128 S128x128 S480000x128 where
  lhsContracting := [1]
  rhsContracting := [0]
  lhsNonContracting := [0]
  rhsNonContracting := [1]
  lhsBatch := []
  rhsBatch := []
  wf := dot_S480000x128_S128x128_S480000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

class Facts : Prop extends Facts₀ where

variable [Facts]
-- ==== Proof.KernelRun.lean ====
/-
  The idealized kernel program's run with its RESULT named.  The program is five segments: host operations, the
  first edge-MLP launch, host operations, the second launch, host operations.  The buffer contents at each
  boundary are a fold from the launch memory (`Gen.W0` … `Gen.W5`): a host stretch applies its operations'
  pure functions, a launch replaces its eight arrays by what its write-backs leave.  Every weakly fair
  execution ends with every unscoped buffer at the last boundary's contents `Gen.W5`; read at the result
  buffer this names the program's result, and read at an argument it is the launch contents.
-/
import proofs.«158290_j37598143709437_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_result : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.KRun

end
-- ==== Proof.LibEdgeMlp.lean ====
/-
  The per-edge message of one layer, as a function of whole arrays, in two arrangements, and the law joining them.

  An edge `e` carries a gathered node row `xg e : ℝ̄^128` and an attribute row `ea e : ℝ̄^16`.  Its message is
      msg e j = (∑ k, max (pre e k) 0 · W2 k j) + b2 j,
  where the hidden pre-activation is, in the JOINED arrangement, one product with the 144-row weight matrix applied
  to the concatenated row,
      pre e k = (∑ a < 144, (xg e ‖ ea e) a · W1 a k) + b1 k,
  and, in the SPLIT arrangement, two products with the weight matrix's first 128 and last 16 rows,
      pre e k = ((∑ a < 128, xg e a · W1x a k) + (∑ b < 16, ea e b · W1e b k)) + b1 k.
  The two agree because a sum over `Fin (128 + 16)` is the sum over the first 128 indices plus the sum over the
  last 16: only commutativity and associativity of addition on the extended reals, so no finiteness is needed.
-/
import Idealize.ShloMosaic.PureOps.Ideal
import Idealize.ShloMosaic.Lib.ValueIdx
import Mathlib.Algebra.BigOperators.Fin

noncomputable section

namespace EdgeMlp

open Idealize.ShloMosaic Idealize.ShloMosaic.ValueIdx
open scoped BigOperators

/-- The rank-2 shape `[a, b]`. -/
abbrev Sh (a b : Nat) : Shape := ⟨2, ![a, b]⟩
/-- The rank-1 shape `[a]`. -/
abbrev Sh1 (a : Nat) : Shape := ⟨1, ![a]⟩

/-- The rectifier's threshold: the extended real the all-zero f32 word denotes. -/
abbrev zero : EReal := Ideal.ofBits .f32 0x00000000#32

/-- The message array in the SPLIT arrangement: node part and attribute part multiplied separately (biases as
    `[1, 128]` rows). -/
def split (E : Nat) (xg : (Sh E 128).Idx → EReal) (ea : (Sh E 16).Idx → EReal) (w1x : (Sh 128 128).Idx → EReal)
    (w1e : (Sh 16 128).Idx → EReal) (b1 : (Sh 1 128).Idx → EReal) (w2 : (Sh 128 128).Idx → EReal)
    (b2 : (Sh 1 128).Idx → EReal) : (Sh E 128).Idx → EReal := fun i =>
  (∑ k : Fin 128, max (((∑ a : Fin 128, xg (ix2 (i 0) a) * w1x (ix2 a k)) + (∑ b : Fin 16, ea (ix2 (i 0) b) * w1e (ix2 b k)))
      + b1 (ix2 0 k)) zero * w2 (ix2 k (i 1))) + b2 (ix2 0 (i 1))

/-- Entry `a` of the concatenated row `xg e ‖ ea e`. -/
def cat (E : Nat) (xg : (Sh E 128).Idx → EReal) (ea : (Sh E 16).Idx → EReal) (e : Fin E) (a : Fin 144) : EReal :=
  if h : a.val < 128 then xg (ix2 e ⟨a.val, h⟩) else ea (ix2 e ⟨a.val - 128, by have := a.isLt; omega⟩)

/-- The message array in the JOINED arrangement: one product with the whole 144-row weight matrix (biases as
    vectors). -/
def joined (E : Nat) (xg : (Sh E 128).Idx → EReal) (ea : (Sh E 16).Idx → EReal) (w1 : (Sh 144 128).Idx → EReal)
    (b1 : (Sh1 128).Idx → EReal) (w2 : (Sh 128 128).Idx → EReal) (b2 : (Sh1 128).Idx → EReal) :
    (Sh E 128).Idx → EReal := fun i =>
  (∑ k : Fin 128, max ((∑ a : Fin 144, cat E xg ea (i 0) a * w1 (ix2 a k)) + b1 (ix1 k)) zero * w2 (ix2 k (i 1))) + b2 (ix1 (i 1))

/-- A sum over the 144 joined columns is the sum over the 128 node columns plus the sum over the 16 attribute columns. -/
theorem sum_cat (E : Nat) (xg : (Sh E 128).Idx → EReal) (ea : (Sh E 16).Idx → EReal) (w1 : (Sh 144 128).Idx → EReal)
    (e : Fin E) (k : Fin 128) :
    (∑ a : Fin 144, cat E xg ea e a * w1 (ix2 a k))
      = (∑ a : Fin 128, xg (ix2 e a) * w1 (ix2 (⟨a.val, by have := a.isLt; omega⟩ : Fin 144) k))
        + (∑ b : Fin 16, ea (ix2 e b) * w1 (ix2 (⟨128 + b.val, by have := b.isLt; omega⟩ : Fin 144) k)) := by
  have h := Fin.sum_univ_add (M := EReal) (a := 128) (b := 16) (fun a : Fin (128 + 16) => cat E xg ea e a * w1 (ix2 a k))
  refine h.trans (congrArg₂ (· + ·) ?_ ?_)
  · refine Finset.sum_congr rfl fun a _ => ?_
    have ha : ((Fin.castAdd 16 a : Fin (128 + 16)) : Nat) = a.val := rfl
    have hlt : ((Fin.castAdd 16 a : Fin (128 + 16)) : Nat) < 128 := by rw [ha]; exact a.isLt
    show cat E xg ea e (Fin.castAdd 16 a) * _ = _
    unfold cat
    rw [dif_pos hlt]
    rfl
  · refine Finset.sum_congr rfl fun b _ => ?_
    have hb : ((Fin.natAdd 128 b : Fin (128 + 16)) : Nat) = 128 + b.val := rfl
    have hge : ¬ ((Fin.natAdd 128 b : Fin (128 + 16)) : Nat) < 128 := by rw [hb]; omega
    show cat E xg ea e (Fin.natAdd 128 b) * _ = _
    unfold cat
    rw [dif_neg hge]
    have e1 : (⟨((Fin.natAdd 128 b : Fin (128 + 16)) : Nat) - 128, by have := b.isLt; rw [hb]; omega⟩ : Fin 16) = b :=
      Fin.ext (by show 128 + b.val - 128 = b.val; omega)
    rw [e1]
    rfl

/-- THE LAW: the joined arrangement is the split one at the weight matrix's two row ranges and the biases laid out as
    rows. -/
theorem joined_eq_split (E : Nat) (xg : (Sh E 128).Idx → EReal) (ea : (Sh E 16).Idx → EReal) (w1 : (Sh 144 128).Idx → EReal)
    (b1 : (Sh1 128).Idx → EReal) (w2 : (Sh 128 128).Idx → EReal) (b2 : (Sh1 128).Idx → EReal) :
    joined E xg ea w1 b1 w2 b2
      = split E xg ea (fun i => w1 (ix2 (⟨(i 0).val, by have := idx2_lt0 i; omega⟩ : Fin 144) (i 1)))
          (fun i => w1 (ix2 (⟨128 + (i 0).val, by have := idx2_lt0 i; omega⟩ : Fin 144) (i 1)))
          (fun i => b1 (ix1 (i 1))) w2 (fun i => b2 (ix1 (i 1))) := by
  funext i
  unfold joined split
  refine congrArg (· + b2 (ix1 (i 1))) (Finset.sum_congr rfl fun k _ => ?_)
  refine congrArg (fun s => max (s + b1 (ix1 k)) zero * w2 (ix2 k (i 1))) ?_
  exact sum_cat E xg ea w1 (i 0) k

/-- The split message at row `e`, column `q`, written out. -/
theorem split_apply (E : Nat) (xg : (Sh E 128).Idx → EReal) (ea : (Sh E 16).Idx → EReal) (w1x : (Sh 128 128).Idx → EReal)
    (w1e : (Sh 16 128).Idx → EReal) (b1 : (Sh 1 128).Idx → EReal) (w2 : (Sh 128 128).Idx → EReal)
    (b2 : (Sh 1 128).Idx → EReal) (e : Fin E) (q : Fin 128) :
    split E xg ea w1x w1e b1 w2 b2 (ix2 e q)
      = (∑ k : Fin 128, max (((∑ a : Fin 128, xg (ix2 e a) * w1x (ix2 a k)) + (∑ b : Fin 16, ea (ix2 e b) * w1e (ix2 b k)))
          + b1 (ix2 0 k)) zero * w2 (ix2 k q)) + b2 (ix2 0 q) := rfl

/-- The split message at row `e`, column `q` reads only row `e` of the two edge arrays: two instances over different
    numbers of edges agree at rows that hold the same entries, given the same weights. -/
theorem split_congr (E E' : Nat) (xg : (Sh E 128).Idx → EReal) (xg' : (Sh E' 128).Idx → EReal)
    (ea : (Sh E 16).Idx → EReal) (ea' : (Sh E' 16).Idx → EReal)
    (w1x w1x' : (Sh 128 128).Idx → EReal) (w1e w1e' : (Sh 16 128).Idx → EReal) (b1 b1' : (Sh 1 128).Idx → EReal)
    (w2 w2' : (Sh 128 128).Idx → EReal) (b2 b2' : (Sh 1 128).Idx → EReal)
    (e : Fin E) (e' : Fin E') (q : Fin 128)
    (hx : ∀ a : Fin 128, xg (ix2 e a) = xg' (ix2 e' a)) (he : ∀ b : Fin 16, ea (ix2 e b) = ea' (ix2 e' b))
    (h1x : ∀ (a : Fin 128) (k : Fin 128), w1x (ix2 a k) = w1x' (ix2 a k))
    (h1e : ∀ (b : Fin 16) (k : Fin 128), w1e (ix2 b k) = w1e' (ix2 b k))
    (hb1 : ∀ k : Fin 128, b1 (ix2 0 k) = b1' (ix2 0 k))
    (h2 : ∀ (k : Fin 128) (q : Fin 128), w2 (ix2 k q) = w2' (ix2 k q))
    (hb2 : ∀ q : Fin 128, b2 (ix2 0 q) = b2' (ix2 0 q)) :
    split E xg ea w1x w1e b1 w2 b2 (ix2 e q) = split E' xg' ea' w1x' w1e' b1' w2' b2' (ix2 e' q) := by
  rw [split_apply, split_apply]
  simp only [hx, he, h1x, h1e, hb1, h2, hb2]

end EdgeMlp

end
-- ==== Proof.Payload.lean ====
/-
  What one launch of the edge-MLP body stores, read at an index.  The body loads a block of 8000 gathered node rows
  and 8000 attribute rows and the five weight arrays whole, and stores
      relu((xj · W1x + ea · W1e) + b1) · W2 + b2 :
  three matrix products into zero accumulators (each a plain sum over the contracted axis at the exact
  instance), two row-broadcast biases, one rectifier; the changes of float format are the identity on extended
  reals.  So the stored block is the split arrangement of the message function over the 8000 rows of the block.
  The two launches run the same body.
-/
import proofs.«158290_j37598143709437_2_alg».proof.Proof.Gen.KernelIdeal.Skeleton
import proofs.«158290_j37598143709437_2_alg».proof.Proof.LibEdgeMlp
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.ValueIdx Cert.KernelIdeal Cert.KernelIdeal.Gen
open scoped BigOperators

/-- The operand indices of the mm128 product at output index `i` and contracted index `k`. -/
theorem mm128_lhs0 (i : S8000x128.Idx) (k : dot_S8000x128_S128x128_S8000x128_1_0_0_1_n_n.contr.Idx) : (dot_S8000x128_S128x128_S8000x128_1_0_0_1_n_n.lhsIdx i k 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem mm128_lhs1 (i : S8000x128.Idx) (k : dot_S8000x128_S128x128_S8000x128_1_0_0_1_n_n.contr.Idx) : (dot_S8000x128_S128x128_S8000x128_1_0_0_1_n_n.lhsIdx i k 1).val = (k ⟨0, by decide⟩).val :=
  dot_S8000x128_S128x128_S8000x128_1_0_0_1_n_n.lhsIdx_val_of_single rfl i k
theorem mm128_rhs0 (i : S8000x128.Idx) (k : dot_S8000x128_S128x128_S8000x128_1_0_0_1_n_n.contr.Idx) : (dot_S8000x128_S128x128_S8000x128_1_0_0_1_n_n.rhsIdx i k 0).val = (k ⟨0, by decide⟩).val :=
  dot_S8000x128_S128x128_S8000x128_1_0_0_1_n_n.rhsIdx_val_of_single rfl i k
theorem mm128_rhs1 (i : S8000x128.Idx) (k : dot_S8000x128_S128x128_S8000x128_1_0_0_1_n_n.contr.Idx) : (dot_S8000x128_S128x128_S8000x128_1_0_0_1_n_n.rhsIdx i k 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A block of 8000 rows times a 128 × 128 matrix into the zero accumulator, at (p, q): the sum over the 128
    contracted columns. -/
theorem mm128 {φ₁ φ₂ : FTy} (l : FVec Ideal S8000x128 φ₁) (r : FVec Ideal S128x128 φ₂) (p : Fin 8000) (q : Fin 128) :
    matmul dot_S8000x128_S128x128_S8000x128_1_0_0_1_n_n none l r (constant S8000x128 .f32 0x00000000#32) (ix2 p q)
      = ∑ k : Fin 128, l (ix2 p k) * r (ix2 k q) := by
  refine (Ideal.matmul_constant_zero_apply dot_S8000x128_S128x128_S8000x128_1_0_0_1_n_n none l r (ix2 p q)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k :=
    funext fun a => Fin.ext (by
      match a with
      | ⟨0, _⟩ => exact mm128_lhs0 _ _
      | ⟨1, _⟩ => exact (mm128_lhs1 _ _).trans hk)
  have er : dot_S8000x128_S128x128_S8000x128_1_0_0_1_n_n.rhsIdx (ix2 p q) ((contrEquiv1 dot_S8000x128_S128x128_S8000x128_1_0_0_1_n_n 128 rfl rfl).symm k) = ix2 k q :=
    funext fun a => Fin.ext (by
      match a with
      | ⟨0, _⟩ => exact (mm128_rhs0 _ _).trans hk
      | ⟨1, _⟩ => exact mm128_rhs1 _ _)
  rw [el, er]

/-- The operand indices of the mm16 product at output index `i` and contracted index `k`. -/
theorem mm16_lhs0 (i : S8000x128.Idx) (k : dot_S8000x16_S16x128_S8000x128_1_0_0_1_n_n.contr.Idx) : (dot_S8000x16_S16x128_S8000x128_1_0_0_1_n_n.lhsIdx i k 0).val = (i 0).val := by
  unfold DotDims.lhsIdx
  rw [dif_neg (show ¬(0 : Fin S8000x16.rank) ∈ dot_S8000x16_S16x128_S8000x128_1_0_0_1_n_n.lhsBatch by decide), dif_pos (show (0 : Fin S8000x16.rank) ∈ dot_S8000x16_S16x128_S8000x128_1_0_0_1_n_n.lhsNonContracting by decide)]
  rfl
theorem mm16_lhs1 (i : S8000x128.Idx) (k : dot_S8000x16_S16x128_S8000x128_1_0_0_1_n_n.contr.Idx) : (dot_S8000x16_S16x128_S8000x128_1_0_0_1_n_n.lhsIdx i k 1).val = (k ⟨0, by decide⟩).val :=
  dot_S8000x16_S16x128_S8000x128_1_0_0_1_n_n.lhsIdx_val_of_single rfl i k
theorem mm16_rhs0 (i : S8000x128.Idx) (k : dot_S8000x16_S16x128_S8000x128_1_0_0_1_n_n.contr.Idx) : (dot_S8000x16_S16x128_S8000x128_1_0_0_1_n_n.rhsIdx i k 0).val = (k ⟨0, by decide⟩).val :=
  dot_S8000x16_S16x128_S8000x128_1_0_0_1_n_n.rhsIdx_val_of_single rfl i k
theorem mm16_rhs1 (i : S8000x128.Idx) (k : dot_S8000x16_S16x128_S8000x128_1_0_0_1_n_n.contr.Idx) : (dot_S8000x16_S16x128_S8000x128_1_0_0_1_n_n.rhsIdx i k 1).val = (i 1).val := by
  unfold DotDims.rhsIdx
  rw [dif_neg (show ¬(1 : Fin S16x128.rank) ∈ dot_S8000x16_S16x128_S8000x128_1_0_0_1_n_n.rhsBatch by decide), dif_pos (show (1 : Fin S16x128.rank) ∈ dot_S8000x16_S16x128_S8000x128_1_0_0_1_n_n.rhsNonContracting by decide)]
  rfl

/-- A block of 8000 attribute rows times the 16 × 128 matrix into the zero accumulator, at (p, q): the sum over the
    16 contracted columns. -/
theorem mm16 {φ₁ φ₂ : FTy} (l : FVec Ideal S8000x16 φ₁) (r : FVec Ideal S16x128 φ₂) (p : Fin 8000) (q : Fin 128) :
    matmul dot_S8000x16_S16x128_S8000x128_1_0_0_1_n_n none l r (constant S8000x128 .f32 0x00000000#32) (ix2 p q)
      = ∑ k : Fin 16, l (ix2 p k) * r (ix2 k q) := by
  refine (Ideal.matmul_constant_zero_apply dot_S8000x16_S16x128_S8000x128_1_0_0_1_n_n none l r (ix2 p q)).trans ?_
  rw [← Equiv.sum_comp (contrEquiv1 dot_S8000x16_S16x128_S8000x128_1_0_0_1_n_n 16 rfl rfl).symm]
  refine Finset.sum_congr rfl fun k _ => ?_
  have hk := contrEquiv1_symm_val dot_S8000x16_S16x128_S8000x128_1_0_0_1_n_n 16 rfl rfl k
  have el : dot_S8000x16_S16x128_S8000x128_1_0_0_1_n_n.lhsIdx (ix2 p q) ((contrEquiv1 dot_S8000x16_S16x128_S8000x128_1_0_0_1_n_n 16 rfl rfl).symm k) = ix2 p k :=
    funext fun a => Fin.ext (by
      match a with
      | ⟨0, _⟩ => exact mm16_lhs0 _ _
      | ⟨1, _⟩ => exact (mm16_lhs1 _ _).trans hk)
  have er : dot_S8000x16_S16x128_S8000x128_1_0_0_1_n_n.rhsIdx (ix2 p q) ((contrEquiv1 dot_S8000x16_S16x128_S8000x128_1_0_0_1_n_n 16 rfl rfl).symm k) = ix2 k q :=
    funext fun a => Fin.ext (by
      match a with
      | ⟨0, _⟩ => exact (mm16_rhs0 _ _).trans hk
      | ⟨1, _⟩ => exact mm16_rhs1 _ _)
  rw [el, er]

/-- A `[1, 128]` bias row broadcast over the block's 8000 rows, at (p, q): the row's entry q. -/
theorem bias_row (b : FVec Ideal S1x128 .f32) (p : Fin 8000) (q : Fin 128) :
    broadcastTo S8000x128 b broadcasts_S1x128_S8000x128 (ix2 p q) = b (ix2 0 q) :=
  broadcastTo_apply b broadcasts_S1x128_S8000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- THE STORED BLOCK of the first launch is the split message function of the loaded blocks. -/
theorem pay0_eq (x0 : Vec Ideal S8000x128 .bf16) (x1 : Vec Ideal S8000x16 .bf16) (x2 : Vec Ideal S128x128 .f32)
    (x3 : Vec Ideal S16x128 .f32) (x4 : Vec Ideal S1x128 .f32) (x5 : Vec Ideal S128x128 .f32) (x6 : Vec Ideal S1x128 .f32) :
    k0_pay1 (F := Ideal) x0 x1 x2 x3 x4 x5 x6 = EdgeMlp.split 8000 x0 x1 x2 x3 x4 x5 x6 := by
  funext j
  obtain ⟨p, q, rfl⟩ : ∃ (p : Fin 8000) (q : Fin 128), j = ix2 p q := ⟨j 0, j 1, eq_ix2 j⟩
  rw [EdgeMlp.split_apply]
  unfold k0_pay1
  simp only [shapeCast_self, addf_apply, truncf_apply, maximumf_apply, broadcast_apply, bias_row,
    mm128 (φ₁ := .bf16) (φ₂ := .bf16), mm16 (φ₁ := .bf16) (φ₂ := .bf16)]
  rfl

/-- The second launch runs the same body. -/
theorem pay1_eq (x0 : Vec Ideal S8000x128 .bf16) (x1 : Vec Ideal S8000x16 .bf16) (x2 : Vec Ideal S128x128 .f32)
    (x3 : Vec Ideal S16x128 .f32) (x4 : Vec Ideal S1x128 .f32) (x5 : Vec Ideal S128x128 .f32) (x6 : Vec Ideal S1x128 .f32) :
    k1_pay1 (F := Ideal) x0 x1 x2 x3 x4 x5 x6 = EdgeMlp.split 8000 x0 x1 x2 x3 x4 x5 x6 :=
  pay0_eq x0 x1 x2 x3 x4 x5 x6

end Cert.KernelIdeal.Payload

end
-- ==== Proof.Region0.lean ====
/-
  The message array the first edge-MLP launch leaves, as one function of the arrays the launch finds.
  The grid has 60 points; point `t` loads rows 8000·t … 8000·t + 7999 of the gathered node array and of the
  attribute array, the five weight arrays whole, and writes back the same rows of the message array.  The stored
  block is the split message function of the loaded blocks, and that function at row `e` reads only row `e` of
  the two edge arrays, so block `t` of the output is block `t` of the split message function of the WHOLE arrays.
  The 60 blocks cover all 480000 rows, so the array after the launch is that function everywhere.
-/
import proofs.«158290_j37598143709437_2_alg».proof.Proof.Gen.KernelIdeal.Frame
import proofs.«158290_j37598143709437_2_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The message array: the split message function of the arrays the launch finds. -/
abbrev Msg (c : Dev nD) : S480000x128.Idx → EReal :=
  EdgeMlp.split 480000 (V c main_v12) (V c main_v4) (V c main_v13) (V c main_v14) (V c main_v15) (V c main_arg5) (V c main_v16)

/-- What point `t` stores: the split message function of the blocks it loads. -/
abbrev Blk (c : Dev nD) (t : Fin cfg0.N) : S8000x128.Idx → EReal :=
  EdgeMlp.split 8000 (iblk0 V c 0 t) (iblk0 V c 1 t) (iblk0 V c 2 t) (iblk0 V c 3 t) (iblk0 V c 4 t)
    (iblk0 V c 5 t) (iblk0 V c 6 t)

/-- The printed index maps over the grid: the two edge windows move with the output window along the rows and sit at
    column block 0; the five weight windows sit at block (0, 0); the output's row block is the point's number. -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 59 :=
  (by decide +kernel : ∀ t : Fin grid0.N, _)

/-- Every row block is some point's. -/
theorem index_onto : ∀ q : Fin 60, ∃ t : Fin cfg0.N, win0_7.index t = ![q.val, 0] :=
  (by decide +kernel : ∀ q : Fin 60, ∃ t : Fin grid0.N, win0_7.index t = ![q.val, 0])

/-- WHAT POINT `t` WRITES BACK is block `t` of the message array. -/
theorem flushed_eq (c : Dev nD) (t : Fin cfg0.N) :
    (dat0 V c).flushed 7 t = ((cfg0.win 7).blk t).view.read (Elt Ideal) (Msg V c) := by
  show (cfg0.win 7).cut (grid0.coords t) ((dat0 V c).after 7 t) = _
  rw [after0_7]
  unfold out0_7
  rw [View.canon_unit_zero zero_offsets]
  simp only [View.ld_unit_zero (S := S8000x128) zero_offsets, View.ld_unit_zero (S := S8000x16) zero_offsets,
    View.ld_unit_zero (S := S128x128) zero_offsets, View.ld_unit_zero (S := S16x128) zero_offsets,
    View.ld_unit_zero (S := S1x128) zero_offsets]
  rw [Payload.pay0_eq]
  obtain ⟨e00, e01, e10, e11, e20, e21, e30, e31, e40, e41, e50, e51, e60, e61, e71, e7⟩ := index_facts t
  funext y
  have hy0 : (y 0).val < 8000 := (y 0).isLt
  have hy1 : (y 1).val < 128 := (y 1).isLt
  have hy : (y : S8000x128.Idx) = ix2 (⟨(y 0).val, hy0⟩ : Fin 8000) (⟨(y 1).val, hy1⟩ : Fin 128) :=
    funext fun d => Fin.ext (by match d with | ⟨0, _⟩ => rfl | ⟨1, _⟩ => rfl)
  have hemb : (((cfg0.win 7).blk t).view.emb y : S480000x128.Idx)
      = ix2 (⟨win0_7.index t (0 : Fin 2) * 8000 + (y 0).val, by omega⟩ : Fin 480000) (⟨(y 1).val, hy1⟩ : Fin 128) :=
    funext fun d => Fin.ext (by
      match d with
      | ⟨0, _⟩ => show win0_7.index t (0 : Fin 2) * 8000 + 1 * (y 0).val = win0_7.index t (0 : Fin 2) * 8000 + (y 0).val; omega
      | ⟨1, _⟩ => show win0_7.index t (1 : Fin 2) * 128 + 1 * (y 1).val = (y 1).val; omega)
  show Blk V c t y = Msg V c (((cfg0.win 7).blk t).view.emb y)
  rw [hemb]
  refine (congrArg (Blk V c t) hy).trans ?_
  refine EdgeMlp.split_congr 8000 480000 _ _ _ _ _ _ _ _ _ _ _ _ _ _ _ _ _ ?_ ?_ ?_ ?_ ?_ ?_ ?_
  · intro a
    show V c main_v12 (((cfg0.win 0).blk t).view.emb (ix2 (⟨(y 0).val, hy0⟩ : Fin 8000) a)) = V c main_v12 (ix2 _ a)
    refine congrArg (V c main_v12) (funext fun d => Fin.ext ?_)
    match d with
    | ⟨0, _⟩ => show win0_0.index t (0 : Fin 2) * 8000 + 1 * (y 0).val = win0_7.index t (0 : Fin 2) * 8000 + (y 0).val; omega
    | ⟨1, _⟩ => show win0_0.index t (1 : Fin 2) * 128 + 1 * a.val = a.val; omega
  · intro b
    show V c main_v4 (((cfg0.win 1).blk t).view.emb (ix2 (⟨(y 0).val, hy0⟩ : Fin 8000) b)) = V c main_v4 (ix2 _ b)
    refine congrArg (V c main_v4) (funext fun d => Fin.ext ?_)
    match d with
    | ⟨0, _⟩ => show win0_1.index t (0 : Fin 2) * 8000 + 1 * (y 0).val = win0_7.index t (0 : Fin 2) * 8000 + (y 0).val; omega
    | ⟨1, _⟩ => show win0_1.index t (1 : Fin 2) * 16 + 1 * b.val = b.val; omega
  · intro a k
    show V c main_v13 (((cfg0.win 2).blk t).view.emb (ix2 a k)) = V c main_v13 (ix2 a k)
    refine congrArg (V c main_v13) (funext fun d => Fin.ext ?_)
    match d with
    | ⟨0, _⟩ => show win0_2.index t (0 : Fin 2) * 128 + 1 * a.val = a.val; omega
    | ⟨1, _⟩ => show win0_2.index t (1 : Fin 2) * 128 + 1 * k.val = k.val; omega
  · intro b k
    show V c main_v14 (((cfg0.win 3).blk t).view.emb (ix2 b k)) = V c main_v14 (ix2 b k)
    refine congrArg (V c main_v14) (funext fun d => Fin.ext ?_)
    match d with
    | ⟨0, _⟩ => show win0_3.index t (0 : Fin 2) * 16 + 1 * b.val = b.val; omega
    | ⟨1, _⟩ => show win0_3.index t (1 : Fin 2) * 128 + 1 * k.val = k.val; omega
  · intro k
    show V c main_v15 (((cfg0.win 4).blk t).view.emb (ix2 0 k)) = V c main_v15 (ix2 0 k)
    refine congrArg (V c main_v15) (funext fun d => Fin.ext ?_)
    match d with
    | ⟨0, _⟩ => show win0_4.index t (0 : Fin 2) * 1 + 1 * 0 = 0; omega
    | ⟨1, _⟩ => show win0_4.index t (1 : Fin 2) * 128 + 1 * k.val = k.val; omega
  · intro k q
    show V c main_arg5 (((cfg0.win 5).blk t).view.emb (ix2 k q)) = V c main_arg5 (ix2 k q)
    refine congrArg (V c main_arg5) (funext fun d => Fin.ext ?_)
    match d with
    | ⟨0, _⟩ => show win0_5.index t (0 : Fin 2) * 128 + 1 * k.val = k.val; omega
    | ⟨1, _⟩ => show win0_5.index t (1 : Fin 2) * 128 + 1 * q.val = q.val; omega
  · intro q
    show V c main_v16 (((cfg0.win 6).blk t).view.emb (ix2 0 q)) = V c main_v16 (ix2 0 q)
    refine congrArg (V c main_v16) (funext fun d => Fin.ext ?_)
    match d with
    | ⟨0, _⟩ => show win0_6.index t (0 : Fin 2) * 1 + 1 * 0 = 0; omega
    | ⟨1, _⟩ => show win0_6.index t (1 : Fin 2) * 128 + 1 * q.val = q.val; omega

/-- An index of the message array is in point `t`'s block iff each coordinate is in the block's range on its axis. -/
theorem mem_block (t : Fin cfg0.N) (i : S480000x128.Idx) :
    i ∈ ((cfg0.win 7).blk t).view.set ↔ ∀ a : Fin 2, win0_7.index t a * S8000x128.size a ≤ (i a).val
      ∧ (i a).val < win0_7.index t a * S8000x128.size a + S8000x128.size a := by
  show i ∈ ((View.whole main_v17).slice (win0_7.rect t)).set ↔ _
  rw [View.set_slice_whole, Rect.mem_set_unit]
  exact Iff.rfl

/-- Every index of the message array is in the block of the point numbered by its row divided by 8000. -/
theorem covered (i : S480000x128.Idx) :
    ∃ t : Fin cfg0.N, (cfg0.win 7).flush t = true ∧ i ∈ ((cfg0.win 7).blk t).view.set := by
  have hi0 : (i 0).val < 480000 := (i 0).isLt
  have hi1 : (i 1).val < 128 := (i 1).isLt
  obtain ⟨t, ht⟩ := index_onto ⟨(i 0).val / 8000, by omega⟩
  have q0 : win0_7.index t (0 : Fin 2) = (i 0).val / 8000 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 128 ≤ (i 1).val ∧ (i 1).val < win0_7.index t (1 : Fin 2) * 128 + 128; omega

/-- THE MESSAGE ARRAY after the launch is the split message function of the arrays the launch finds. -/
theorem value (c : Dev nD) : (dat0 V c).arrAt 7 cfg0.N = Msg V c :=
  (dat0 V c).arrAt_eq_of_cover 7 (Msg V c) (fun t _ => flushed_eq V c t) (covered)

end Cert.KernelIdeal.Region0

end
-- ==== Proof.Region1.lean ====
/-
  The message array the second edge-MLP launch leaves, as one function of the arrays the launch finds.
  The grid has 60 points; point `t` loads rows 8000·t … 8000·t + 7999 of the gathered node array and of the
  attribute array, the five weight arrays whole, and writes back the same rows of the message array.  The stored
  block is the split message function of the loaded blocks, and that function at row `e` reads only row `e` of
  the two edge arrays, so block `t` of the output is block `t` of the split message function of the WHOLE arrays.
  The 60 blocks cover all 480000 rows, so the array after the launch is that function everywhere.
-/
import proofs.«158290_j37598143709437_2_alg».proof.Proof.Gen.KernelIdeal.Frame
import proofs.«158290_j37598143709437_2_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The message array: the split message function of the arrays the launch finds. -/
abbrev Msg (c : Dev nD) : S480000x128.Idx → EReal :=
  EdgeMlp.split 480000 (V c main_v31) (V c main_v4) (V c main_v32) (V c main_v33) (V c main_v34) (V c main_arg9) (V c main_v35)

/-- What point `t` stores: the split message function of the blocks it loads. -/
abbrev Blk (c : Dev nD) (t : Fin cfg1.N) : S8000x128.Idx → EReal :=
  EdgeMlp.split 8000 (iblk1 V c 0 t) (iblk1 V c 1 t) (iblk1 V c 2 t) (iblk1 V c 3 t) (iblk1 V c 4 t)
    (iblk1 V c 5 t) (iblk1 V c 6 t)

/-- The printed index maps over the grid: the two edge windows move with the output window along the rows and sit at
    column block 0; the five weight windows sit at block (0, 0); the output's row block is the point's number. -/
theorem index_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 59 :=
  (by decide +kernel : ∀ t : Fin grid1.N, _)

/-- Every row block is some point's. -/
theorem index_onto : ∀ q : Fin 60, ∃ t : Fin cfg1.N, win1_7.index t = ![q.val, 0] :=
  (by decide +kernel : ∀ q : Fin 60, ∃ t : Fin grid1.N, win1_7.index t = ![q.val, 0])

/-- WHAT POINT `t` WRITES BACK is block `t` of the message array. -/
theorem flushed_eq (c : Dev nD) (t : Fin cfg1.N) :
    (dat1 V c).flushed 7 t = ((cfg1.win 7).blk t).view.read (Elt Ideal) (Msg V c) := by
  show (cfg1.win 7).cut (grid1.coords t) ((dat1 V c).after 7 t) = _
  rw [after1_7]
  unfold out1_7
  rw [View.canon_unit_zero zero_offsets]
  simp only [View.ld_unit_zero (S := S8000x128) zero_offsets, View.ld_unit_zero (S := S8000x16) zero_offsets,
    View.ld_unit_zero (S := S128x128) zero_offsets, View.ld_unit_zero (S := S16x128) zero_offsets,
    View.ld_unit_zero (S := S1x128) zero_offsets]
  rw [Payload.pay1_eq]
  obtain ⟨e00, e01, e10, e11, e20, e21, e30, e31, e40, e41, e50, e51, e60, e61, e71, e7⟩ := index_facts t
  funext y
  have hy0 : (y 0).val < 8000 := (y 0).isLt
  have hy1 : (y 1).val < 128 := (y 1).isLt
  have hy : (y : S8000x128.Idx) = ix2 (⟨(y 0).val, hy0⟩ : Fin 8000) (⟨(y 1).val, hy1⟩ : Fin 128) :=
    funext fun d => Fin.ext (by match d with | ⟨0, _⟩ => rfl | ⟨1, _⟩ => rfl)
  have hemb : (((cfg1.win 7).blk t).view.emb y : S480000x128.Idx)
      = ix2 (⟨win1_7.index t (0 : Fin 2) * 8000 + (y 0).val, by omega⟩ : Fin 480000) (⟨(y 1).val, hy1⟩ : Fin 128) :=
    funext fun d => Fin.ext (by
      match d with
      | ⟨0, _⟩ => show win1_7.index t (0 : Fin 2) * 8000 + 1 * (y 0).val = win1_7.index t (0 : Fin 2) * 8000 + (y 0).val; omega
      | ⟨1, _⟩ => show win1_7.index t (1 : Fin 2) * 128 + 1 * (y 1).val = (y 1).val; omega)
  show Blk V c t y = Msg V c (((cfg1.win 7).blk t).view.emb y)
  rw [hemb]
  refine (congrArg (Blk V c t) hy).trans ?_
  refine EdgeMlp.split_congr 8000 480000 _ _ _ _ _ _ _ _ _ _ _ _ _ _ _ _ _ ?_ ?_ ?_ ?_ ?_ ?_ ?_
  · intro a
    show V c main_v31 (((cfg1.win 0).blk t).view.emb (ix2 (⟨(y 0).val, hy0⟩ : Fin 8000) a)) = V c main_v31 (ix2 _ a)
    refine congrArg (V c main_v31) (funext fun d => Fin.ext ?_)
    match d with
    | ⟨0, _⟩ => show win1_0.index t (0 : Fin 2) * 8000 + 1 * (y 0).val = win1_7.index t (0 : Fin 2) * 8000 + (y 0).val; omega
    | ⟨1, _⟩ => show win1_0.index t (1 : Fin 2) * 128 + 1 * a.val = a.val; omega
  · intro b
    show V c main_v4 (((cfg1.win 1).blk t).view.emb (ix2 (⟨(y 0).val, hy0⟩ : Fin 8000) b)) = V c main_v4 (ix2 _ b)
    refine congrArg (V c main_v4) (funext fun d => Fin.ext ?_)
    match d with
    | ⟨0, _⟩ => show win1_1.index t (0 : Fin 2) * 8000 + 1 * (y 0).val = win1_7.index t (0 : Fin 2) * 8000 + (y 0).val; omega
    | ⟨1, _⟩ => show win1_1.index t (1 : Fin 2) * 16 + 1 * b.val = b.val; omega
  · intro a k
    show V c main_v32 (((cfg1.win 2).blk t).view.emb (ix2 a k)) = V c main_v32 (ix2 a k)
    refine congrArg (V c main_v32) (funext fun d => Fin.ext ?_)
    match d with
    | ⟨0, _⟩ => show win1_2.index t (0 : Fin 2) * 128 + 1 * a.val = a.val; omega
    | ⟨1, _⟩ => show win1_2.index t (1 : Fin 2) * 128 + 1 * k.val = k.val; omega
  · intro b k
    show V c main_v33 (((cfg1.win 3).blk t).view.emb (ix2 b k)) = V c main_v33 (ix2 b k)
    refine congrArg (V c main_v33) (funext fun d => Fin.ext ?_)
    match d with
    | ⟨0, _⟩ => show win1_3.index t (0 : Fin 2) * 16 + 1 * b.val = b.val; omega
    | ⟨1, _⟩ => show win1_3.index t (1 : Fin 2) * 128 + 1 * k.val = k.val; omega
  · intro k
    show V c main_v34 (((cfg1.win 4).blk t).view.emb (ix2 0 k)) = V c main_v34 (ix2 0 k)
    refine congrArg (V c main_v34) (funext fun d => Fin.ext ?_)
    match d with
    | ⟨0, _⟩ => show win1_4.index t (0 : Fin 2) * 1 + 1 * 0 = 0; omega
    | ⟨1, _⟩ => show win1_4.index t (1 : Fin 2) * 128 + 1 * k.val = k.val; omega
  · intro k q
    show V c main_arg9 (((cfg1.win 5).blk t).view.emb (ix2 k q)) = V c main_arg9 (ix2 k q)
    refine congrArg (V c main_arg9) (funext fun d => Fin.ext ?_)
    match d with
    | ⟨0, _⟩ => show win1_5.index t (0 : Fin 2) * 128 + 1 * k.val = k.val; omega
    | ⟨1, _⟩ => show win1_5.index t (1 : Fin 2) * 128 + 1 * q.val = q.val; omega
  · intro q
    show V c main_v35 (((cfg1.win 6).blk t).view.emb (ix2 0 q)) = V c main_v35 (ix2 0 q)
    refine congrArg (V c main_v35) (funext fun d => Fin.ext ?_)
    match d with
    | ⟨0, _⟩ => show win1_6.index t (0 : Fin 2) * 1 + 1 * 0 = 0; omega
    | ⟨1, _⟩ => show win1_6.index t (1 : Fin 2) * 128 + 1 * q.val = q.val; omega

/-- An index of the message array is in point `t`'s block iff each coordinate is in the block's range on its axis. -/
theorem mem_block (t : Fin cfg1.N) (i : S480000x128.Idx) :
    i ∈ ((cfg1.win 7).blk t).view.set ↔ ∀ a : Fin 2, win1_7.index t a * S8000x128.size a ≤ (i a).val
      ∧ (i a).val < win1_7.index t a * S8000x128.size a + S8000x128.size a := by
  show i ∈ ((View.whole main_v36).slice (win1_7.rect t)).set ↔ _
  rw [View.set_slice_whole, Rect.mem_set_unit]
  exact Iff.rfl

/-- Every index of the message array is in the block of the point numbered by its row divided by 8000. -/
theorem covered (i : S480000x128.Idx) :
    ∃ t : Fin cfg1.N, (cfg1.win 7).flush t = true ∧ i ∈ ((cfg1.win 7).blk t).view.set := by
  have hi0 : (i 0).val < 480000 := (i 0).isLt
  have hi1 : (i 1).val < 128 := (i 1).isLt
  obtain ⟨t, ht⟩ := index_onto ⟨(i 0).val / 8000, by omega⟩
  have q0 : win1_7.index t (0 : Fin 2) = (i 0).val / 8000 := congrFun ht 0
  have q1 : win1_7.index t (1 : Fin 2) = 0 := congrFun ht 1
  refine ⟨t, flush1_7 t, ?_⟩
  rw [mem_block]
  intro a
  match a with
  | ⟨0, _⟩ => show win1_7.index t (0 : Fin 2) * 8000 ≤ (i 0).val ∧ (i 0).val < win1_7.index t (0 : Fin 2) * 8000 + 8000; omega
  | ⟨1, _⟩ => show win1_7.index t (1 : Fin 2) * 128 ≤ (i 1).val ∧ (i 1).val < win1_7.index t (1 : Fin 2) * 128 + 128; omega

/-- THE MESSAGE ARRAY after the launch is the split message function of the arrays the launch finds. -/
theorem value (c : Dev nD) : (dat1 V c).arrAt 7 cfg1.N = Msg V c :=
  (dat1 V c).arrAt_eq_of_cover 7 (Msg V c) (fun t _ => flushed_eq V c t) (covered)

end Cert.KernelIdeal.Region1

end
-- ==== Proof.KernelValue.lean ====
/-
  The idealized kernel program's result as ONE pure function of its argument arrays.
  The last boundary's contents at the result buffer are read back through the five segments: a host stretch's
  buffers are its operations' functions of the contents before it; a launch's message array is the split message
  function of the arrays it finds (the two launch modules); every other buffer passes a launch unchanged.
  Read this way the program is: two message-passing layers
      layer h = relu (scatter-add over destination nodes of msg (gather h at source nodes) + h),
  then the mean over the 30000 nodes, one more product and a bias.
-/
import proofs.«158290_j37598143709437_2_alg».proof.Proof.Region0
import proofs.«158290_j37598143709437_2_alg».proof.Proof.Region1
import Idealize.ShloMosaic.Lib.StableHlo.Run

set_option maxRecDepth 16384

noncomputable section

namespace Cert.KernelIdeal.KVal

open Idealize.ShloMosaic Idealize.ShloMosaic.TcCoe Idealize.ShloMosaic.Tactic Idealize.SL.Sem Idealize.ShloMosaic.StableHlo
open Cert.KernelIdeal Cert.KernelIdeal.Gen

section AnyInstance

variable {F : FTy → Type} [FloatOps F]

/-- An array of shape `S` and element type `e`. -/
abbrev Arr (F : FTy → Type) (S : Shape) (e : EltTy) : Type := (⟨S, e⟩ : BufTy).Contents (Elt F)

/-- Row 0 of the edge list: each edge's source node, as given. -/
def srcRaw (ei : Arr F S2x480000 .i32) : Arr F S480000 .i32 :=
  shapeCast _ (extractStridedSlice S1x480000 ![0, 0] ei slices_S2x480000_S1x480000_0_0) shapeCasts_S1x480000_S480000
/-- Row 1 of the edge list: each edge's destination node. -/
def dstRaw (ei : Arr F S2x480000 .i32) : Arr F S480000 .i32 :=
  shapeCast _ (extractStridedSlice S1x480000 ![1, 0] ei slices_S2x480000_S1x480000_1_0) shapeCasts_S1x480000_S480000
/-- The gather's index column: a negative source index counts from the end (30000 is added to it). -/
def srcIdx (ei : Arr F S2x480000 .i32) : Arr F S480000x1 .i32 :=
  broadcastInDim S480000x1 ![0] bcast_S480000_S480000x1_0
    (select (cmpi .slt (srcRaw ei) (broadcastInDim S480000 ![] bcast_S_S480000 (constantI S_ 32 0#32)))
      (addi (srcRaw ei) (broadcastInDim S480000 ![] bcast_S_S480000 (constantI S_ 32 30000#32))) (srcRaw ei))
/-- The scatter's index column. -/
def dstIdx (ei : Arr F S2x480000 .i32) : Arr F S480000x1 .i32 :=
  broadcastInDim S480000x1 ![0] bcast_S480000_S480000x1_0 (dstRaw ei)
/-- The all-zero node array. -/
def zeros : Arr F S30000x128 .f32 :=
  broadcastInDim S30000x128 ![] bcast_S_S30000x128 (constant (F := F) S_ .f32 0x00000000#32)
/-- The node array after the change of float format the gather reads it through. -/
def nodesNarrow (h : Arr F S30000x128 .f32) : Arr F S30000x128 .bf16 :=
  ((truncf .bf16 · bitsLt_bf16_f32) : Arr F S30000x128 .f32 → Arr F S30000x128 .bf16) h
/-- The attribute array after the change of float format the launches read it through. -/
def attrNarrow (ea : Arr F S480000x16 .f32) : Arr F S480000x16 .bf16 :=
  ((truncf .bf16 · bitsLt_bf16_f32) : Arr F S480000x16 .f32 → Arr F S480000x16 .bf16) ea
/-- The node rows gathered at the edges' sources. -/
def gathered (h : Arr F S30000x128 .f32) (ei : Arr F S2x480000 .i32) : Arr F S480000x128 .bf16 :=
  ((fun x i => Host.gather gather_S30000x128_S480000x1_S480000x128_1_0_n_n_0_1_1128 x i) :
    Arr F S30000x128 .bf16 → Arr F S480000x1 .i32 → Arr F S480000x128 .bf16) (nodesNarrow h) (srcIdx ei)
/-- Rows 0 … 127 of a layer's first weight matrix. -/
def nodeRows (W1 : Arr F S144x128 .f32) : Arr F S128x128 .f32 :=
  ((extractStridedSlice S128x128 ![0, 0] · slices_S144x128_S128x128_0_0) : Arr F S144x128 .f32 → Arr F S128x128 .f32) W1
/-- Rows 128 … 143 of a layer's first weight matrix. -/
def attrRows (W1 : Arr F S144x128 .f32) : Arr F S16x128 .f32 :=
  ((extractStridedSlice S16x128 ![128, 0] · slices_S144x128_S16x128_128_0) : Arr F S144x128 .f32 → Arr F S16x128 .f32) W1
/-- A bias vector as a `[1, 128]` row. -/
def biasRow (b : Arr F S128 .f32) : Arr F S1x128 .f32 :=
  shapeCast _ b shapeCasts_S128_S1x128
/-- One layer around a given message array: messages summed at their destination nodes, the residual, the rectifier. -/
def layerOf (msgs : Arr F S480000x128 .f32) (h : Arr F S30000x128 .f32) (ei : Arr F S2x480000 .i32) : Arr F S30000x128 .f32 :=
  ((maximumf : Arr F S30000x128 .f32 → Arr F S30000x128 .f32 → Arr F S30000x128 .f32))
    (((addf : Arr F S30000x128 .f32 → Arr F S30000x128 .f32 → Arr F S30000x128 .f32))
      (((fun x i u => Host.scatterAdd scatter_S30000x128_S480000x1_S480000x128_1_0_0_1 x i u) :
        Arr F S30000x128 .f32 → Arr F S480000x1 .i32 → Arr F S480000x128 .f32 → Arr F S30000x128 .f32) zeros (dstIdx ei) msgs) h)
    zeros
/-- The read-out: the mean over the nodes, the last product, the last bias. -/
def readout (h : Arr F S30000x128 .f32) (Wl : Arr F S128x2 .f32) (bl : Arr F S2 .f32) : Arr F S1x2 .f32 :=
  ((addf : Arr F S1x2 .f32 → Arr F S1x2 .f32 → Arr F S1x2 .f32))
    (((fun l r => Host.dotGeneral dot_S1x128_S128x2_S1x2_1_0_0_1_n_n none l r) : Arr F S1x128 .f32 → Arr F S128x2 .f32 → Arr F S1x2 .f32)
      (((Host.divf : Arr F S1x128 .f32 → Arr F S1x128 .f32 → Arr F S1x128 .f32))
        ((broadcastInDim S1x128 ![1] bcast_S128_S1x128_1 : Arr F S128 .f32 → Arr F S1x128 .f32)
          (((fun x v => Host.reduceAdd x v reducesTo_S30000x128_S128_d0 h_S_) : Arr F S30000x128 .f32 → Arr F S_ .f32 → Arr F S128 .f32)
            h (constant (F := F) S_ .f32 0x00000000#32)))
        ((broadcastInDim S1x128 ![] bcast_S_S1x128 : Arr F S_ .f32 → Arr F S1x128 .f32) (constant (F := F) S_ .f32 0x46EA6000#32)))
      Wl)
    ((broadcastInDim S1x2 ![1] bcast_S2_S1x2_1 : Arr F S2 .f32 → Arr F S1x2 .f32) bl)

end AnyInstance

/-- One layer's message array at the exact instance: the split message function of the gathered rows, the attributes,
    the weight matrix's two row ranges and the biases as rows. -/
def msg (h : Arr Ideal S30000x128 .f32) (ei : Arr Ideal S2x480000 .i32) (ea : Arr Ideal S480000x16 .f32) (W1 : Arr Ideal S144x128 .f32)
    (b1 : Arr Ideal S128 .f32) (W2 : Arr Ideal S128x128 .f32) (b2 : Arr Ideal S128 .f32) : Arr Ideal S480000x128 .f32 :=
  EdgeMlp.split 480000 (gathered h ei) (attrNarrow ea) (nodeRows W1) (attrRows W1) (biasRow b1) W2 (biasRow b2)
/-- One layer at the exact instance. -/
def layer (h : Arr Ideal S30000x128 .f32) (ei : Arr Ideal S2x480000 .i32) (ea : Arr Ideal S480000x16 .f32) (W1 : Arr Ideal S144x128 .f32)
    (b1 : Arr Ideal S128 .f32) (W2 : Arr Ideal S128x128 .f32) (b2 : Arr Ideal S128 .f32) : Arr Ideal S30000x128 .f32 :=
  layerOf (msg h ei ea W1 b1 W2 b2) h ei

/-- The split message function respects equality of each of its seven arrays. -/
theorem split_args {E : Nat} {a a' : (EdgeMlp.Sh E 128).Idx → EReal} {b b' : (EdgeMlp.Sh E 16).Idx → EReal}
    {w w' : (EdgeMlp.Sh 128 128).Idx → EReal} {v v' : (EdgeMlp.Sh 16 128).Idx → EReal} {r r' : (EdgeMlp.Sh 1 128).Idx → EReal}
    {u u' : (EdgeMlp.Sh 128 128).Idx → EReal} {s s' : (EdgeMlp.Sh 1 128).Idx → EReal}
    (h0 : a = a') (h1 : b = b') (h2 : w = w') (h3 : v = v') (h4 : r = r') (h5 : u = u') (h6 : s = s') :
    EdgeMlp.split E a b w v r u s = EdgeMlp.split E a' b' w' v' r' u' s' := by
  subst h0 h1 h2 h3 h4 h5 h6; rfl

variable (m : (ℓ : Loc nD τ sig) → Buf (Elt Ideal) ℓ) (ρ : Dev nD → PrngReg)

/-! ## After the first host stretch -/

set_option maxHeartbeats 8000000 in
theorem W1_v12 (c : Dev nD) : W1 m ρ c (Proc.devRef .tc main_v12) = gathered (m ((c : Thread nD τ).loc main_arg0)) (m ((c : Thread nD τ).loc main_arg1)) := by
  show StableHlo.after hostOps0 (W0 m ρ c) (Proc.devRef .tc main_v12) = _
  after_results
  rfl

set_option maxHeartbeats 8000000 in
theorem W1_v4 (c : Dev nD) : W1 m ρ c (Proc.devRef .tc main_v4) = attrNarrow (m ((c : Thread nD τ).loc main_arg2)) := by
  show StableHlo.after hostOps0 (W0 m ρ c) (Proc.devRef .tc main_v4) = _
  after_results
  rfl

set_option maxHeartbeats 8000000 in
theorem W1_v13 (c : Dev nD) : W1 m ρ c (Proc.devRef .tc main_v13) = nodeRows (m ((c : Thread nD τ).loc main_arg3)) := by
  show StableHlo.after hostOps0 (W0 m ρ c) (Proc.devRef .tc main_v13) = _
  after_results
  rfl

set_option maxHeartbeats 8000000 in
theorem W1_v14 (c : Dev nD) : W1 m ρ c (Proc.devRef .tc main_v14) = attrRows (m ((c : Thread nD τ).loc main_arg3)) := by
  show StableHlo.after hostOps0 (W0 m ρ c) (Proc.devRef .tc main_v14) = _
  after_results
  rfl

set_option maxHeartbeats 8000000 in
theorem W1_v15 (c : Dev nD) : W1 m ρ c (Proc.devRef .tc main_v15) = biasRow (m ((c : Thread nD τ).loc main_arg4)) := by
  show StableHlo.after hostOps0 (W0 m ρ c) (Proc.devRef .tc main_v15) = _
  after_results
  rfl

set_option maxHeartbeats 8000000 in
theorem W1_v16 (c : Dev nD) : W1 m ρ c (Proc.devRef .tc main_v16) = biasRow (m ((c : Thread nD τ).loc main_arg6)) := by
  show StableHlo.after hostOps0 (W0 m ρ c) (Proc.devRef .tc main_v16) = _
  after_results
  rfl

set_option maxHeartbeats 8000000 in
theorem W1_v1 (c : Dev nD) : W1 m ρ c (Proc.devRef .tc main_v1) = srcRaw (m ((c : Thread nD τ).loc main_arg1)) := by
  show StableHlo.after hostOps0 (W0 m ρ c) (Proc.devRef .tc main_v1) = _
  after_results
  rfl

set_option maxHeartbeats 8000000 in
theorem W1_v3 (c : Dev nD) : W1 m ρ c (Proc.devRef .tc main_v3) = dstRaw (m ((c : Thread nD τ).loc main_arg1)) := by
  show StableHlo.after hostOps0 (W0 m ρ c) (Proc.devRef .tc main_v3) = _
  after_results
  rfl

set_option maxHeartbeats 8000000 in
theorem W1_arg0 (c : Dev nD) : W1 m ρ c (Proc.devRef .tc main_arg0) = (m ((c : Thread nD τ).loc main_arg0)) := by
  show StableHlo.after hostOps0 (W0 m ρ c) (Proc.devRef .tc main_arg0) = _
  after_results

set_option maxHeartbeats 8000000 in
theorem W1_arg5 (c : Dev nD) : W1 m ρ c (Proc.devRef .tc main_arg5) = (m ((c : Thread nD τ).loc main_arg5)) := by
  show StableHlo.after hostOps0 (W0 m ρ c) (Proc.devRef .tc main_arg5) = _
  after_results

set_option maxHeartbeats 8000000 in
theorem W1_arg7 (c : Dev nD) : W1 m ρ c (Proc.devRef .tc main_arg7) = (m ((c : Thread nD τ).loc main_arg7)) := by
  show StableHlo.after hostOps0 (W0 m ρ c) (Proc.devRef .tc main_arg7) = _
  after_results

set_option maxHeartbeats 8000000 in
theorem W1_arg8 (c : Dev nD) : W1 m ρ c (Proc.devRef .tc main_arg8) = (m ((c : Thread nD τ).loc main_arg8)) := by
  show StableHlo.after hostOps0 (W0 m ρ c) (Proc.devRef .tc main_arg8) = _
  after_results

set_option maxHeartbeats 8000000 in
theorem W1_arg9 (c : Dev nD) : W1 m ρ c (Proc.devRef .tc main_arg9) = (m ((c : Thread nD τ).loc main_arg9)) := by
  show StableHlo.after hostOps0 (W0 m ρ c) (Proc.devRef .tc main_arg9) = _
  after_results

set_option maxHeartbeats 8000000 in
theorem W1_arg10 (c : Dev nD) : W1 m ρ c (Proc.devRef .tc main_arg10) = (m ((c : Thread nD τ).loc main_arg10)) := by
  show StableHlo.after hostOps0 (W0 m ρ c) (Proc.devRef .tc main_arg10) = _
  after_results

set_option maxHeartbeats 8000000 in
theorem W1_arg11 (c : Dev nD) : W1 m ρ c (Proc.devRef .tc main_arg11) = (m ((c : Thread nD τ).loc main_arg11)) := by
  show StableHlo.after hostOps0 (W0 m ρ c) (Proc.devRef .tc main_arg11) = _
  after_results

set_option maxHeartbeats 8000000 in
theorem W1_arg12 (c : Dev nD) : W1 m ρ c (Proc.devRef .tc main_arg12) = (m ((c : Thread nD τ).loc main_arg12)) := by
  show StableHlo.after hostOps0 (W0 m ρ c) (Proc.devRef .tc main_arg12) = _
  after_results

/-! ## After the first launch -/

theorem W2_v17 (c : Dev nD) : W2 m ρ c (Proc.devRef .tc main_v17) = msg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 7).trans ((Region0.value (V1 m ρ) c).trans
    (split_args (W1_v12 m ρ c) (W1_v4 m ρ c) (W1_v13 m ρ c) (W1_v14 m ρ c) (W1_v15 m ρ c) (W1_arg5 m ρ c) (W1_v16 m ρ c)))

theorem W2_v1 (c : Dev nD) : W2 m ρ c (Proc.devRef .tc main_v1) = srcRaw (m ((c : Thread nD τ).loc main_arg1)) :=
  (W2_of_ne m ρ c main_v1 (by decide)).trans (W1_v1 m ρ c)

theorem W2_v3 (c : Dev nD) : W2 m ρ c (Proc.devRef .tc main_v3) = dstRaw (m ((c : Thread nD τ).loc main_arg1)) :=
  (W2_of_ne m ρ c main_v3 (by decide)).trans (W1_v3 m ρ c)

theorem W2_v4 (c : Dev nD) : W2 m ρ c (Proc.devRef .tc main_v4) = attrNarrow (m ((c : Thread nD τ).loc main_arg2)) :=
  ((W2_arr m ρ c 1).trans (((dat0 (V1 m ρ) c).arrAt_in 1 rfl _).trans (A_eq0 (V1 m ρ) c 1))).trans (W1_v4 m ρ c)

theorem W2_arg0 (c : Dev nD) : W2 m ρ c (Proc.devRef .tc main_arg0) = (m ((c : Thread nD τ).loc main_arg0)) :=
  (W2_of_ne m ρ c main_arg0 (by decide)).trans (W1_arg0 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W2_arg8 (c : Dev nD) : W2 m ρ c (Proc.devRef .tc main_arg8) = (m ((c : Thread nD τ).loc main_arg8)) :=
  (W2_of_ne m ρ c main_arg8 (by decide)).trans (W1_arg8 m ρ c)

theorem W2_arg9 (c : Dev nD) : W2 m ρ c (Proc.devRef .tc main_arg9) = (m ((c : Thread nD τ).loc main_arg9)) :=
  (W2_of_ne m ρ c main_arg9 (by decide)).trans (W1_arg9 m ρ c)

theorem W2_arg10 (c : Dev nD) : W2 m ρ c (Proc.devRef .tc main_arg10) = (m ((c : Thread nD τ).loc main_arg10)) :=
  (W2_of_ne m ρ c main_arg10 (by decide)).trans (W1_arg10 m ρ c)

theorem W2_arg11 (c : Dev nD) : W2 m ρ c (Proc.devRef .tc main_arg11) = (m ((c : Thread nD τ).loc main_arg11)) :=
  (W2_of_ne m ρ c main_arg11 (by decide)).trans (W1_arg11 m ρ c)

theorem W2_arg12 (c : Dev nD) : W2 m ρ c (Proc.devRef .tc main_arg12) = (m ((c : Thread nD τ).loc main_arg12)) :=
  (W2_of_ne m ρ c main_arg12 (by decide)).trans (W1_arg12 m ρ c)

/-! ## After the second host stretch -/

set_option maxHeartbeats 8000000 in
theorem W3_v23 (c : Dev nD) : W3 m ρ c (Proc.devRef .tc main_v23) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v23) = _
  after_results
  rw [W2_v3, W2_v17, W2_arg0]
  rfl

set_option maxHeartbeats 8000000 in
theorem W3_v31 (c : Dev nD) : W3 m ρ c (Proc.devRef .tc main_v31) = gathered (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) := by
  show StableHlo.after hostOps1 (W2 m ρ c) (Proc.devRef .tc main_v31) = _
  after_results
  rw [W2_v3, W2_v17, W2_arg0, W2_v1]
  rfl

set_option maxHeartbeats 8000000 in
theorem W3_v4 (c : Dev nD) : W3 m ρ c (Proc.devRef .tc main_v4) = attrNarrow (m ((c : Thread nD τ).loc main_arg2)) := by
  show StableHlo.after hostOps1 (W2 m ρ c) (Proc.devRef .tc main_v4) = _
  after_results
  exact W2_v4 m ρ c

set_option maxHeartbeats 8000000 in
theorem W3_v32 (c : Dev nD) : W3 m ρ c (Proc.devRef .tc main_v32) = nodeRows (m ((c : Thread nD τ).loc main_arg7)) := by
  show StableHlo.after hostOps1 (W2 m ρ c) (Proc.devRef .tc main_v32) = _
  after_results
  rw [W2_arg7]
  rfl

set_option maxHeartbeats 8000000 in
theorem W3_v33 (c : Dev nD) : W3 m ρ c (Proc.devRef .tc main_v33) = attrRows (m ((c : Thread nD τ).loc main_arg7)) := by
  show StableHlo.after hostOps1 (W2 m ρ c) (Proc.devRef .tc main_v33) = _
  after_results
  rw [W2_arg7]
  rfl

set_option maxHeartbeats 8000000 in
theorem W3_v34 (c : Dev nD) : W3 m ρ c (Proc.devRef .tc main_v34) = biasRow (m ((c : Thread nD τ).loc main_arg8)) := by
  show StableHlo.after hostOps1 (W2 m ρ c) (Proc.devRef .tc main_v34) = _
  after_results
  rw [W2_arg8]
  rfl

set_option maxHeartbeats 8000000 in
theorem W3_v35 (c : Dev nD) : W3 m ρ c (Proc.devRef .tc main_v35) = biasRow (m ((c : Thread nD τ).loc main_arg10)) := by
  show StableHlo.after hostOps1 (W2 m ρ c) (Proc.devRef .tc main_v35) = _
  after_results
  rw [W2_arg10]
  rfl

set_option maxHeartbeats 8000000 in
theorem W3_v3 (c : Dev nD) : W3 m ρ c (Proc.devRef .tc main_v3) = dstRaw (m ((c : Thread nD τ).loc main_arg1)) := by
  show StableHlo.after hostOps1 (W2 m ρ c) (Proc.devRef .tc main_v3) = _
  after_results
  exact W2_v3 m ρ c

set_option maxHeartbeats 8000000 in
theorem W3_arg9 (c : Dev nD) : W3 m ρ c (Proc.devRef .tc main_arg9) = (m ((c : Thread nD τ).loc main_arg9)) := by
  show StableHlo.after hostOps1 (W2 m ρ c) (Proc.devRef .tc main_arg9) = _
  after_results
  exact W2_arg9 m ρ c

set_option maxHeartbeats 8000000 in
theorem W3_arg11 (c : Dev nD) : W3 m ρ c (Proc.devRef .tc main_arg11) = (m ((c : Thread nD τ).loc main_arg11)) := by
  show StableHlo.after hostOps1 (W2 m ρ c) (Proc.devRef .tc main_arg11) = _
  after_results
  exact W2_arg11 m ρ c

set_option maxHeartbeats 8000000 in
theorem W3_arg12 (c : Dev nD) : W3 m ρ c (Proc.devRef .tc main_arg12) = (m ((c : Thread nD τ).loc main_arg12)) := by
  show StableHlo.after hostOps1 (W2 m ρ c) (Proc.devRef .tc main_arg12) = _
  after_results
  exact W2_arg12 m ρ c

/-! ## After the second launch -/

theorem W4_v36 (c : Dev nD) : W4 m ρ c (Proc.devRef .tc main_v36) = msg (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) :=
  (W4_arr m ρ c 7).trans ((Region1.value (V3 m ρ) c).trans
    (split_args (W3_v31 m ρ c) (W3_v4 m ρ c) (W3_v32 m ρ c) (W3_v33 m ρ c) (W3_v34 m ρ c) (W3_arg9 m ρ c) (W3_v35 m ρ c)))

theorem W4_v3 (c : Dev nD) : W4 m ρ c (Proc.devRef .tc main_v3) = dstRaw (m ((c : Thread nD τ).loc main_arg1)) :=
  (W4_of_ne m ρ c main_v3 (by decide)).trans (W3_v3 m ρ c)

theorem W4_v23 (c : Dev nD) : W4 m ρ c (Proc.devRef .tc main_v23) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v23 (by decide)).trans (W3_v23 m ρ c)

theorem W4_arg11 (c : Dev nD) : W4 m ρ c (Proc.devRef .tc main_arg11) = (m ((c : Thread nD τ).loc main_arg11)) :=
  (W4_of_ne m ρ c main_arg11 (by decide)).trans (W3_arg11 m ρ c)

theorem W4_arg12 (c : Dev nD) : W4 m ρ c (Proc.devRef .tc main_arg12) = (m ((c : Thread nD τ).loc main_arg12)) :=
  (W4_of_ne m ρ c main_arg12 (by decide)).trans (W3_arg12 m ρ c)

/-! ## The result -/

set_option maxHeartbeats 8000000 in
theorem W5_v49 (c : Dev nD) : W5 m ρ c (Proc.devRef .tc main_v49) = readout (layer (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) := by
  show StableHlo.after hostOps2 (W4 m ρ c) (Proc.devRef .tc main_v49) = _
  after_results
  rw [W4_v3, W4_v36, W4_v23, W4_arg11, W4_arg12]
  rfl

end Cert.KernelIdeal.KVal

end
-- ==== Proof.RefMessage.lean ====
/-
  The reference's message array, read at an index.  The reference concatenates each gathered node row with the
  edge's attribute row, multiplies the 144-entry row by the whole weight matrix, adds the bias, rectifies,
  multiplies by the second weight matrix and adds the second bias.  Read one operation at a time (each matrix
  product as a sum over its contracted axis, each broadcast at the index it repeats, the concatenation by the
  side of column 128 the index lies on) its entry (e, j) is the JOINED arrangement of the message function.
-/
import proofs.«158290_j37598143709437_2_alg».proof.Proof.Gen.ReferenceIdeal.Read
import proofs.«158290_j37598143709437_2_alg».proof.Proof.LibEdgeMlp

noncomputable section

namespace Cert.ReferenceIdeal.RMsg

open Idealize.ShloMosaic Idealize.ShloMosaic.ValueIdx Cert.ReferenceIdeal Cert.ReferenceIdeal.Gen Cert.ReferenceIdeal.Read
open scoped BigOperators

variable (x0 : (⟨S30000x128, .f32⟩ : BufTy).Contents (Elt Ideal)) (x1 : (⟨S2x480000, .i32⟩ : BufTy).Contents (Elt Ideal))
  (x2 : (⟨S480000x16, .f32⟩ : BufTy).Contents (Elt Ideal)) (x3 : (⟨S144x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The concatenated array at (e, a): the gathered row's entry for a < 128, the attribute row's entry a − 128 otherwise. -/
theorem cat_apply (e : Fin 480000) (a : Fin 144) :
    val_main_v11 (F := Ideal) x0 x1 x2 (ix2 e a) = EdgeMlp.cat 480000 (val_main_v10 (F := Ideal) x0 x1) x2 e a := by
  unfold val_main_v11 EdgeMlp.cat
  by_cases h : a.val < 128
  · rw [dif_pos h]
    exact concatenate_pair_apply_left 1 _ _ concatenates_S480000x128_S480000x16_S480000x144_d1 (ix2 e a) rfl
      (ix2 e (⟨a.val, h⟩ : Fin 128)) (fun b => by match b with | ⟨0, _⟩ => rfl | ⟨1, _⟩ => rfl)
  · rw [dif_neg h]
    exact concatenate_pair_apply_right 1 _ _ concatenates_S480000x128_S480000x16_S480000x144_d1 (ix2 e a) rfl rfl
      (ix2 e (⟨a.val - 128, by have := a.isLt; omega⟩ : Fin 16))
      (fun b hb => by match b with | ⟨0, _⟩ => rfl | ⟨1, _⟩ => exact absurd rfl hb)
      (by show a.val - 128 + 128 = a.val; omega)

/-- THE REFERENCE'S MESSAGE ARRAY is the joined arrangement of the message function of the gathered rows. -/
theorem msg_joined :
    val_main_v21 (F := Ideal) x0 x1 x2 x3 x4 x5 x6
      = EdgeMlp.joined 480000 (val_main_v10 (F := Ideal) x0 x1) x2 x3 x4 x5 x6 := by
  funext i
  obtain ⟨e, j, rfl⟩ : ∃ (e : Fin 480000) (j : Fin 128), i = ix2 e j := ⟨i 0, i 1, eq_ix2 i⟩
  have l18 : ∀ k : Fin 128, lidx_main_v18 (ix2 e j) k = ix2 e k := fun k =>
    funext fun a => by match a with | ⟨0, _⟩ => rfl | ⟨1, _⟩ => rfl
  have r18 : ∀ k : Fin 128, ridx_main_v18 (ix2 e j) k = ix2 k j := fun k =>
    funext fun a => by match a with | ⟨0, _⟩ => rfl | ⟨1, _⟩ => rfl
  have l12 : ∀ (k : Fin 128) (a : Fin 144), lidx_main_v12 (ix2 e k) a = ix2 e a := fun k a =>
    funext fun d => by match d with | ⟨0, _⟩ => rfl | ⟨1, _⟩ => rfl
  have r12 : ∀ (k : Fin 128) (a : Fin 144), ridx_main_v12 (ix2 e k) a = ix2 a k := fun k a =>
    funext fun d => by match d with | ⟨0, _⟩ => rfl | ⟨1, _⟩ => rfl
  have b1i : ∀ k : Fin 128, idx_main_v13 (idx_main_v14 (ix2 e k)) = ix1 k := fun k =>
    funext fun d => by match d with | ⟨0, _⟩ => rfl
  have b2i : idx_main_v19 (idx_main_v20 (ix2 e j)) = ix1 j :=
    funext fun d => by match d with | ⟨0, _⟩ => rfl
  rw [val_main_v21_apply, val_main_v18_apply, val_main_v20_apply, val_main_v19_apply, b2i]
  unfold EdgeMlp.joined
  refine congrArg₂ (· + ·) (Finset.sum_congr rfl fun k _ => ?_) rfl
  rw [l18, r18, val_main_v17_apply, val_main_v15_apply, val_main_v16_apply, val_main_v12_apply, val_main_v14_apply,
    val_main_v13_apply, b1i]
  refine congrArg₂ (· * ·) (congrArg₂ max (congrArg₂ (· + ·) (Finset.sum_congr rfl fun a _ => ?_) rfl) rfl) rfl
  rw [l12, r12, cat_apply]

end Cert.ReferenceIdeal.RMsg

end
-- ==== Proof.Bridge.lean ====
/-
  The two programs compute one function of the argument arrays.
  Both are: two layers `h ↦ relu (scatter-add of the messages at their destinations + h)` over the same gather and
  scatter indices, then the same read-out.  They differ only inside a layer's message array: the kernel program
  multiplies the gathered rows and the attribute rows separately by the weight matrix's first 128 and last 16 rows
  (the split arrangement, with the biases reshaped to rows and the edge arrays passed through a change of float
  format, the identity on extended reals), the reference multiplies the concatenated rows by the whole matrix (the
  joined arrangement).  The law `joined = split` identifies the two message arrays; everything around them is the
  same operations applied to equal arrays.
-/
import proofs.«158290_j37598143709437_2_alg».proof.Proof.KernelValue
import proofs.«158290_j37598143709437_2_alg».proof.Proof.RefMessage

set_option maxRecDepth 16384

noncomputable section

namespace Cert.Bridge

open Idealize.ShloMosaic Idealize.ShloMosaic.ValueIdx
open Cert.KernelIdeal.KVal (Arr)

variable (h : Arr Ideal Cert.KernelIdeal.S30000x128 .f32) (ei : Arr Ideal Cert.KernelIdeal.S2x480000 .i32)
  (ea : Arr Ideal Cert.KernelIdeal.S480000x16 .f32) (W1 : Arr Ideal Cert.KernelIdeal.S144x128 .f32) (b1 : Arr Ideal Cert.KernelIdeal.S128 .f32)
  (W2 : Arr Ideal Cert.KernelIdeal.S128x128 .f32) (b2 : Arr Ideal Cert.KernelIdeal.S128 .f32)

/-- Rows 0 … 127 of the weight matrix, as the kernel program slices them. -/
theorem w1_node_rows :
    Cert.KernelIdeal.KVal.nodeRows W1 = fun i => W1 (ix2 (⟨(i 0).val, by have := idx2_lt0 i; omega⟩ : Fin 144) (i 1)) := by
  funext i
  unfold Cert.KernelIdeal.KVal.nodeRows
  refine extractStridedSlice_apply ![0, 0] W1 Cert.KernelIdeal.Gen.slices_S144x128_S128x128_0_0 i
    (ix2 (⟨(i 0).val, by have := idx2_lt0 i; omega⟩ : Fin 144) (i 1)) (fun a => ?_)
  match a with
  | ⟨0, _⟩ => show (i 0).val = 0 + (i 0).val; omega
  | ⟨1, _⟩ => show (i 1).val = 0 + (i 1).val; omega

/-- Rows 128 … 143 of the weight matrix, as the kernel program slices them. -/
theorem w1_attr_rows :
    Cert.KernelIdeal.KVal.attrRows W1 = fun i => W1 (ix2 (⟨128 + (i 0).val, by have := idx2_lt0 i; omega⟩ : Fin 144) (i 1)) := by
  funext i
  unfold Cert.KernelIdeal.KVal.attrRows
  refine extractStridedSlice_apply ![128, 0] W1 Cert.KernelIdeal.Gen.slices_S144x128_S16x128_128_0 i
    (ix2 (⟨128 + (i 0).val, by have := idx2_lt0 i; omega⟩ : Fin 144) (i 1)) (fun a => ?_)
  match a with
  | ⟨0, _⟩ => rfl
  | ⟨1, _⟩ => show (i 1).val = 0 + (i 1).val; omega

/-- A bias vector reshaped to a `[1, 128]` row, at (0, q): the vector's entry q. -/
theorem bias_as_row (b : Arr Ideal Cert.KernelIdeal.S128 .f32) :
    Cert.KernelIdeal.KVal.biasRow b = fun i => b (ix1 (i 1)) := by
  funext i
  unfold Cert.KernelIdeal.KVal.biasRow
  refine shapeCast_apply b Cert.KernelIdeal.Gen.shapeCasts_S128_S1x128 i (ix1 (i 1)) ?_
  rw [Shape.rowMajor_val_one, Shape.rowMajor_val_two]
  have h0 : (i 0).val < 1 := (i 0).isLt
  show (i 1).val = (i 0).val * 128 + (i 1).val
  omega

/-- THE MESSAGE ARRAYS AGREE: the kernel program's split arrangement is the reference's joined arrangement. -/
theorem msg_eq :
    Cert.KernelIdeal.KVal.msg h ei ea W1 b1 W2 b2 = Cert.ReferenceIdeal.Read.val_main_v21 (F := Ideal) h ei ea W1 b1 W2 b2 := by
  rw [Cert.ReferenceIdeal.RMsg.msg_joined, EdgeMlp.joined_eq_split]
  unfold Cert.KernelIdeal.KVal.msg
  exact Cert.KernelIdeal.KVal.split_args rfl rfl (w1_node_rows W1) (w1_attr_rows W1) (bias_as_row b1) rfl (bias_as_row b2)

/-- One layer of the kernel program is one layer of the reference. -/
theorem layer_eq :
    Cert.KernelIdeal.KVal.layer h ei ea W1 b1 W2 b2 = Cert.ReferenceIdeal.Read.val_main_v27 (F := Ideal) h ei ea W1 b1 W2 b2 := by
  unfold Cert.KernelIdeal.KVal.layer
  rw [msg_eq]
  rfl

/-- THE RESULTS AGREE: the kernel program's result function is the reference's, at every argument. -/
theorem result_eq (a0 : Arr Ideal Cert.KernelIdeal.S30000x128 .f32) (a1 : Arr Ideal Cert.KernelIdeal.S2x480000 .i32)
    (a2 : Arr Ideal Cert.KernelIdeal.S480000x16 .f32) (a3 : Arr Ideal Cert.KernelIdeal.S144x128 .f32) (a4 : Arr Ideal Cert.KernelIdeal.S128 .f32)
    (a5 : Arr Ideal Cert.KernelIdeal.S128x128 .f32) (a6 : Arr Ideal Cert.KernelIdeal.S128 .f32) (a7 : Arr Ideal Cert.KernelIdeal.S144x128 .f32)
    (a8 : Arr Ideal Cert.KernelIdeal.S128 .f32) (a9 : Arr Ideal Cert.KernelIdeal.S128x128 .f32) (a10 : Arr Ideal Cert.KernelIdeal.S128 .f32)
    (a11 : Arr Ideal Cert.KernelIdeal.S128x2 .f32) (a12 : Arr Ideal Cert.KernelIdeal.S2 .f32) :
    Cert.KernelIdeal.KVal.readout
        (Cert.KernelIdeal.KVal.layer (Cert.KernelIdeal.KVal.layer a0 a1 a2 a3 a4 a5 a6) a1 a2 a7 a8 a9 a10) a11 a12
      = Cert.ReferenceIdeal.Read.val_main_v58 (F := Ideal) a0 a1 a2 a3 a4 a5 a6 a7 a8 a9 a10 a11 a12 := by
  rw [layer_eq, layer_eq]
  rfl

end Cert.Bridge

end
-- ==== Proof.lean ====
/-
  The claim: the word-level kernel program, its idealization and the idealized reference each run to the end with
  their arguments unchanged; the idealization rewrote nothing; and at the exact instance the idealized kernel
  program and the idealized reference end with the same result.

  The program is a two-layer message-passing network over 30000 nodes and 480000 edges followed by a mean over
  the nodes and a linear read-out.  Per layer the kernel program gathers each edge's source row, runs the edge MLP
  `relu((xj · W1[:128] + ea · W1[128:]) + b1) · W2 + b2` in a launch over 60 blocks of 8000 edges, sums the messages
  at the destination nodes and adds the residual.  The reference computes the same MLP as
  `relu(concat(xj, ea) · W1 + b1) · W2 + b2`.  At the exact instance the changes of float format are the identity
  and every matrix product is a plain sum, so the two MLPs differ by the splitting of a sum over 144 = 128 + 16
  columns — commutativity and associativity of addition on the extended reals, which hold at the infinities too:
  the precondition is never opened.

  The frames of the two kernel programs are generated; the reference's frame is its generated run with the result
  dropped.  For the value claim: the run of the idealized kernel program with its result named (KernelRun), that
  result as a pure function of the arguments (KernelValue, over the two launch modules Region0 and Region1 and the
  body's payload read at an index, Payload), the reference's message array read at an index (RefMessage), and the
  equality of the two result functions (Bridge, by the law in LibEdgeMlp).
-/
import proofs.«158290_j37598143709437_2_alg».proof.Defs
import proofs.«158290_j37598143709437_2_alg».proof.Proof.Gen.Kernel
import proofs.«158290_j37598143709437_2_alg».proof.Proof.Gen.Kernel.Skeleton
import proofs.«158290_j37598143709437_2_alg».proof.Proof.Gen.Kernel.Launch
import proofs.«158290_j37598143709437_2_alg».proof.Proof.Gen.Kernel.Points
import proofs.«158290_j37598143709437_2_alg».proof.Proof.Gen.Kernel.Frame
import proofs.«158290_j37598143709437_2_alg».proof.Proof.Gen.KernelIdeal
import proofs.«158290_j37598143709437_2_alg».proof.Proof.Gen.KernelIdeal.Skeleton
import proofs.«158290_j37598143709437_2_alg».proof.Proof.Gen.KernelIdeal.Launch
import proofs.«158290_j37598143709437_2_alg».proof.Proof.Gen.KernelIdeal.Points
import proofs.«158290_j37598143709437_2_alg».proof.Proof.Gen.KernelIdeal.Frame
import proofs.«158290_j37598143709437_2_alg».proof.Proof.Gen.ReferenceIdeal
import proofs.«158290_j37598143709437_2_alg».proof.Proof.Gen.Pre_finite_inputs
import proofs.«158290_j37598143709437_2_alg».proof.Proof.Gen.ReferenceIdeal.Run
import proofs.«158290_j37598143709437_2_alg».proof.Proof.Gen.ReferenceIdeal.Read
import proofs.«158290_j37598143709437_2_alg».proof.Proof.KernelRun
import proofs.«158290_j37598143709437_2_alg».proof.Proof.KernelValue
import proofs.«158290_j37598143709437_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact instance, from memories agreeing on the arguments, the idealized kernel program ends with its
    result at the two-layer network's function of the arguments and so does the reference. -/
theorem algebraic : Cert.algebraic_KernelIdeal_ReferenceIdeal := by
  intro m ρ m' ρ' _ hagree
  refine ⟨fun c => Cert.KernelIdeal.Gen.W5 m ρ c (Proc.devRef .tc Cert.KernelIdeal.main_v49),
    Cert.KernelIdeal.KRun.run_result m ρ, ?_⟩
  refine (θ_run Cert.ReferenceIdeal.defs _ _).mono (fun r h c => ⟨(h c).1.trans ?_, (h c).2⟩)
    (Cert.ReferenceIdeal.Value.run (F := Ideal) m' ρ')
  show Cert.ReferenceIdeal.Value.res_main_v58 m' c = Cert.KernelIdeal.Gen.W5 m ρ c (Proc.devRef .tc Cert.KernelIdeal.main_v49)
  rw [Cert.ReferenceIdeal.Read.val_main_v58_eq, Cert.KernelIdeal.KVal.W5_v49 m ρ c,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.Bridge.result_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
